-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part3 {F : FTy → Type} [FloatOps F] (main_v48 : IVec S_ 1) (main_v49 : FVec F S4 .f32) (main_v50 : FVec F S4 .f32) : IVec S_ 1 :=
  let main_v51 : IVec S4 1 := cmpf .olt main_v49 main_v50
  let main_c_19 : IVec S_ 1 := constantI S_ 1 1#1
  let main_v52 : IVec S_ 1 := (fun x v => Host.reduce IntOp.andi x v reducesTo_S4_S_d0 h_S_) main_v51 main_c_19
  let main_v53 : IVec S_ 1 := andi main_v48 main_v52
  main_v53

def fn_part2 {F : FTy → Type} [FloatOps F] (main_arg8 : FVec F S64 .f32) (main_arg9 : FVec F S64 .f32) (main_arg10 : FVec F S64x4 .f32) (main_arg11 : FVec F S4 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x4 .f32 := Host.absf main_arg10
  let main_cst_16 : FVec F S_ .f32 := constant S_ .f32 0x7F800000#32
  let main_v45 : FVec F S64x4 .f32 := broadcastInDim S64x4 ![] bcast_S_S64x4 main_cst_16
  let main_v46 : IVec S64x4 1 := cmpf .olt main_v44 main_v45
  let main_c_17 : IVec S_ 1 := constantI S_ 1 1#1
  let main_v47 : IVec S_ 1 := (fun x v => Host.reduce IntOp.andi x v reducesTo_S64x4_S_d0_1 h_S_) main_v46 main_c_17
  let main_v48 : IVec S_ 1 := andi main_v43 main_v47
  let main_v49 : FVec F S4 .f32 := Host.absf main_arg11
  let main_cst_18 : FVec F S_ .f32 := constant S_ .f32 0x7F800000#32
  let main_v50 : FVec F S4 .f32 := broadcastInDim S4 ![] bcast_S_S4 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64 .f32) (main_arg9 : FVec F S64 .f32) (main_arg10 : FVec F S64x4 .f32) (main_arg11 : FVec F S4 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x3200000 32) (main_arg2 : FVec F S128x64 .f32) (main_arg3 : FVec F S64 .f32) (main_arg4 : FVec F S64x64 .f32) (main_arg5 : FVec F S64 .f32) (main_arg6 : FVec F S64x64 .f32) (main_arg7 : FVec F S64 .f32) (main_arg8 : FVec F S64 .f32) (main_arg9 : FVec F S64 .f32) (main_arg10 : FVec F S64x4 .f32) (main_arg11 : FVec F S4 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S1x64 : Shape := ⟨2, ![1, 64]⟩
abbrev S1x4 : Shape := ⟨2, ![1, 4]⟩
abbrev S100000x64 : Shape := ⟨2, ![100000, 64]⟩
abbrev S5000x128 : Shape := ⟨2, ![5000, 128]⟩
abbrev S5000x64 : Shape := ⟨2, ![5000, 64]⟩
abbrev S3300000x64 : Shape := ⟨2, ![3300000, 64]⟩
abbrev S5000 : Shape := ⟨1, ![5000]⟩
abbrev S5000x1 : Shape := ⟨2, ![5000, 1]⟩
abbrev S100000x4 : Shape := ⟨2, ![100000, 4]⟩
abbrev S5000x4 : Shape := ⟨2, ![5000, 4]⟩

abbrev nBuf : Space → Nat
  | .hbm => 113
  | .vmem => 42
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64x4, .f32⟩
  | .hbm, ⟨11, _⟩ => ⟨S4, .f32⟩
  | .hbm, ⟨12, _⟩ => ⟨S100000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S1x3200000, .i32⟩
  | .hbm, ⟨17, _⟩ => ⟨S3200000, .i32⟩
  | .hbm, ⟨18, _⟩ => ⟨S3300000, .i32⟩
  | .hbm, ⟨19, _⟩ => ⟨S_, .f32⟩
  | .hbm, ⟨20, _⟩ => ⟨S3300000, .f32⟩
  | .hbm, ⟨21, _⟩ => ⟨S_, .f32⟩
  | .hbm, ⟨22, _⟩ => ⟨S100000, .f32⟩
  | .hbm, ⟨23, _⟩ => ⟨S3300000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S3300000, .i32⟩
  | .hbm, ⟨35, _⟩ => ⟨S3300000, .i1⟩
  | .hbm, ⟨36, _⟩ => ⟨S_, .i32⟩
  | .hbm, ⟨37, _⟩ => ⟨S3300000, .i32⟩
  | .hbm, ⟨38, _⟩ => ⟨S3300000, .i32⟩
  | .hbm, ⟨39, _⟩ => ⟨S3300000, .i32⟩
  | .hbm, ⟨40, _⟩ => ⟨S3300000x1, .i32⟩
  | .hbm, ⟨41, _⟩ => ⟨S3300000, .f32⟩
  | .hbm, ⟨42, _⟩ => ⟨S_, .i32⟩
  | .hbm, ⟨43, _⟩ => ⟨S3300000, .i32⟩
  | .hbm, ⟨44, _⟩ => ⟨S3300000, .i1⟩
  | .hbm, ⟨45, _⟩ => ⟨S_, .i32⟩
  | .hbm, ⟨46, _⟩ => ⟨S3300000, .i32⟩
  | .hbm, ⟨47, _⟩ => ⟨S3300000, .i32⟩
  | .hbm, ⟨48, _⟩ => ⟨S3300000, .i32⟩
  | .hbm, ⟨49, _⟩ => ⟨S3300000x1, .i32⟩
  | .hbm, ⟨50, _⟩ => ⟨S3300000, .f32⟩
  | .hbm, ⟨51, _⟩ => ⟨S3300000, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S1x64, .f32⟩
  | .hbm, ⟨56, _⟩ => ⟨S1x64, .f32⟩
  | .hbm, ⟨57, _⟩ => ⟨S1x4, .f32⟩
  | .hbm, ⟨58, _⟩ => ⟨S100000x64, .f32⟩
  | .hbm, ⟨59, _⟩ => ⟨S_, .i32⟩
  | .hbm, ⟨60, _⟩ => ⟨S3300000, .i32⟩
  | .hbm, ⟨61, _⟩ => ⟨S3300000, .i1⟩
  | .hbm, ⟨62, _⟩ => ⟨S_, .i32⟩
  | .hbm, ⟨63, _⟩ => ⟨S3300000, .i32⟩
  | .hbm, ⟨64, _⟩ => ⟨S3300000, .i32⟩
  | .hbm, ⟨65, _⟩ => ⟨S3300000, .i32⟩
  | .hbm, ⟨66, _⟩ => ⟨S3300000x1, .i32⟩
  | .hbm, ⟨67, _⟩ => ⟨S3300000x64, .f32⟩
  | .hbm, ⟨68, _⟩ => ⟨S3300000x1, .f32⟩
  | .hbm, ⟨69, _⟩ => ⟨S3300000x64, .f32⟩
  | .hbm, ⟨70, _⟩ => ⟨S3300000x64, .f32⟩
  | .hbm, ⟨71, _⟩ => ⟨S_, .f32⟩
  | .hbm, ⟨72, _⟩ => ⟨S100000x64, .f32⟩
  | .hbm, ⟨73, _⟩ => ⟨S3300000x1, .i32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S_, .i32⟩
  | .hbm, ⟨78, _⟩ => ⟨S3300000, .i32⟩
  | .hbm, ⟨79, _⟩ => ⟨S3300000, .i1⟩
  | .hbm, ⟨80, _⟩ => ⟨S_, .i32⟩
  | .hbm, ⟨81, _⟩ => ⟨S3300000, .i32⟩
  | .hbm, ⟨82, _⟩ => ⟨S3300000, .i32⟩
  | .hbm, ⟨83, _⟩ => ⟨S3300000, .i32⟩
  | .hbm, ⟨84, _⟩ => ⟨S3300000x1, .i32⟩
  | .hbm, ⟨85, _⟩ => ⟨S3300000x64, .f32⟩
  | .hbm, ⟨86, _⟩ => ⟨S3300000x1, .f32⟩
  | .hbm, ⟨87, _⟩ => ⟨S3300000x64, .f32⟩
  | .hbm, ⟨88, _⟩ => ⟨S3300000x64, .f32⟩
  | .hbm, ⟨89, _⟩ => ⟨S_, .f32⟩
  | .hbm, ⟨90, _⟩ => ⟨S100000x64, .f32⟩
  | .hbm, ⟨91, _⟩ => ⟨S3300000x1, .i32⟩
  | .hbm, ⟨92, _⟩ => ⟨S100000x64, .f32⟩
  | .hbm, ⟨93, _⟩ => ⟨S100000x64, .f32⟩
  | .hbm, ⟨94, _⟩ => ⟨S100000x64, .f32⟩
  | .hbm, ⟨95, _⟩ => ⟨S_, .i32⟩
  | .hbm, ⟨96, _⟩ => ⟨S3300000, .i32⟩
  | .hbm, ⟨97, _⟩ => ⟨S3300000, .i1⟩
  | .hbm, ⟨98, _⟩ => ⟨S_, .i32⟩
  | .hbm, ⟨99, _⟩ => ⟨S3300000, .i32⟩
  | .hbm, ⟨100, _⟩ => ⟨S3300000, .i32⟩
  | .hbm, ⟨101, _⟩ => ⟨S3300000, .i32⟩
  | .hbm, ⟨102, _⟩ => ⟨S3300000x1, .i32⟩
  | .hbm, ⟨103, _⟩ => ⟨S3300000x64, .f32⟩
  | .hbm, ⟨104, _⟩ => ⟨S3300000x1, .f32⟩
  | .hbm, ⟨105, _⟩ => ⟨S3300000x64, .f32⟩
  | .hbm, ⟨106, _⟩ => ⟨S3300000x64, .f32⟩
  | .hbm, ⟨107, _⟩ => ⟨S_, .f32⟩
  | .hbm, ⟨108, _⟩ => ⟨S100000x64, .f32⟩
  | .hbm, ⟨109, _⟩ => ⟨S3300000x1, .i32⟩
  | .hbm, ⟨110, _⟩ => ⟨S100000x64, .f32⟩
  | .hbm, ⟨111, _⟩ => ⟨S100000x64, .f32⟩
  | .hbm, ⟨112, _⟩ => ⟨S100000x4, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S1x64, .f32⟩
  | .local _ .vmem, ⟨32, _⟩ => ⟨S1x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S64x4, .f32⟩
  | .local _ .vmem, ⟨39, _⟩ => ⟨S1x4, .f32⟩
  | .local _ .vmem, ⟨40, _⟩ => ⟨S5000x4, .f32⟩
  | .local _ .vmem, ⟨41, _⟩ => ⟨S5000x4, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_6 : Ref sig .tc := ⟨.hbm, 59, rfl⟩
abbrev main_v37 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_11 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg3_0 : Ref sig .tc := ⟨.vmem, 33, rfl⟩
abbrev cc5_stg4_0 : Ref sig .tc := ⟨.vmem, 34, rfl⟩
abbrev cc5_stg4_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg3_0 : Ref sig .tc := ⟨.vmem, 40, rfl⟩
abbrev cc6_stg3_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem4_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem3_0 : DmaSem sig := 40
abbrev cc6_sem3_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x4 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x4 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x4 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S64_S1x64 : S64.ShapeCasts S1x64
  shapeCasts_S4_S1x4 : S4.ShapeCasts S1x4
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  inb_S64x4_S64x4_0_0 : ∀ a, (![0, 0] : Fin 2 → Nat) a + S64x4.size a ≤ S64x4.size a
  h_S64x4 : 0 < S64x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x64_S5000x64_1_0_0_1_n_n_wf : DotDims.WF S5000x128 S128x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x64_S5000x64_1_0_0_1_n_n_wf : DotDims.WF S5000x64 S64x64 S5000x64 [1] [0] [0] [1] [] []
  dot_S5000x64_S64x4_S5000x4_1_0_0_1_n_n_wf : DotDims.WF S5000x64 S64x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S100000x64.size a
  hwx3_4 : ∀ i : grid3.Coords, EltTy.bits .f32 = 32 ∨ (Rect.block (s := S100000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x4.size a ≤ S64x4.size a
  hwx6_1 : ∀ i : grid6.Coords, EltTy.bits .f32 = 32 ∨ (Rect.block (s := S64x4) S64x4.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x4.size a ≤ S1x4.size a
  hwx6_2 : ∀ i : grid6.Coords, EltTy.bits .f32 = 32 ∨ (Rect.block (s := S1x4) S1x4.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x4.size a ≤ S100000x4.size a
  hwx6_3 : ∀ i : grid6.Coords, EltTy.bits .f32 = 32 ∨ (Rect.block (s := S100000x4) S5000x4.size (cc6_transform_3 i) (hinb6_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x4_S5000x4_1_0_0_1_n_n : DotDims S5000x64 S64x4 S5000x4 where
  lhsContracting := [1]
  rhsContracting := [0]
  lhsNonContracting := [0]
  rhsNonContracting := [1]
  lhsBatch := []
  rhsBatch := []
  wf := dot_S5000x64_S64x4_S5000x4_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v50) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v33) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v30) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v31) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v65) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v65) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v79) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v34) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v30) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v31) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v80) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v80) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S64x4.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v35) S1x4.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v81) S5000x4.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x64 : Shape := ⟨2, ![64, 64]⟩
abbrev S64x4 : Shape := ⟨2, ![64, 4]⟩
abbrev S4 : Shape := ⟨1, ![4]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩
abbrev S100000x4 : Shape := ⟨2, ![100000, 4]⟩
abbrev S1x4 : Shape := ⟨2, ![1, 4]⟩

abbrev nBuf : Space → Nat
  | .hbm => 212
  | .vmem => 0
  | .smem => 0
  | _ => 0

abbrev hbmTy0_0 (i : Nat) : BufTy := match i % 128 with
  | 0 => ⟨S100000x128, .f32⟩
  | 1 => ⟨S2x3200000, .i32⟩
  | 2 => ⟨S128x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64, .f32⟩
  | 9 => ⟨S64, .f32⟩
  | 10 => ⟨S64x4, .f32⟩
  | 11 => ⟨S4, .f32⟩
  | 12 => ⟨S100000, .i32⟩
  | 13 => ⟨S1x3200000, .i32⟩
  | 14 => ⟨S3200000, .i32⟩
  | 15 => ⟨S3300000, .i32⟩
  | 16 => ⟨S1x3200000, .i32⟩
  | 17 => ⟨S3200000, .i32⟩
  | 18 => ⟨S3300000, .i32⟩
  | 19 => ⟨S_, .f32⟩
  | 20 => ⟨S3300000, .f32⟩
  | 21 => ⟨S_, .f32⟩
  | 22 => ⟨S100000, .f32⟩
  | 23 => ⟨S3300000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S3300000, .i32⟩
  | 35 => ⟨S3300000, .i1⟩
  | 36 => ⟨S_, .i32⟩
  | 37 => ⟨S3300000, .i32⟩
  | 38 => ⟨S3300000, .i32⟩
  | 39 => ⟨S3300000, .i32⟩
  | 40 => ⟨S3300000x1, .i32⟩
  | 41 => ⟨S3300000, .f32⟩
  | 42 => ⟨S_, .i32⟩
  | 43 => ⟨S3300000, .i32⟩
  | 44 => ⟨S3300000, .i1⟩
  | 45 => ⟨S_, .i32⟩
  | 46 => ⟨S3300000, .i32⟩
  | 47 => ⟨S3300000, .i32⟩
  | 48 => ⟨S3300000, .i32⟩
  | 49 => ⟨S3300000x1, .i32⟩
  | 50 => ⟨S3300000, .f32⟩
  | 51 => ⟨S3300000, .f32⟩
  | 52 => ⟨S100000x64, .f32⟩
  | 53 => ⟨S_, .i32⟩
  | 54 => ⟨S3300000, .i32⟩
  | 55 => ⟨S3300000, .i1⟩
  | 56 => ⟨S_, .i32⟩
  | 57 => ⟨S3300000, .i32⟩
  | 58 => ⟨S3300000, .i32⟩
  | 59 => ⟨S3300000, .i32⟩
  | 60 => ⟨S3300000x1, .i32⟩
  | 61 => ⟨S3300000x64, .f32⟩
  | 62 => ⟨S3300000x1, .f32⟩
  | 63 => ⟨S3300000x64, .f32⟩
  | 64 => ⟨S3300000x64, .f32⟩
  | 65 => ⟨S_, .f32⟩
  | 66 => ⟨S100000x64, .f32⟩
  | 67 => ⟨S3300000x1, .i32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S_, .f32⟩
  | 76 => ⟨S100000, .f32⟩
  | 77 => ⟨S100000x1, .f32⟩
  | 78 => ⟨S_, .f32⟩
  | 79 => ⟨S100000x1, .f32⟩
  | 80 => ⟨S100000x1, .f32⟩
  | 81 => ⟨S100000x64, .f32⟩
  | 82 => ⟨S100000x64, .f32⟩
  | 83 => ⟨S100000x64, .f32⟩
  | 84 => ⟨S_, .f32⟩
  | 85 => ⟨S100000, .f32⟩
  | 86 => ⟨S100000x1, .f32⟩
  | 87 => ⟨S_, .f32⟩
  | 88 => ⟨S100000x1, .f32⟩
  | 89 => ⟨S100000x1, .f32⟩
  | 90 => ⟨S100000x64, .f32⟩
  | 91 => ⟨S100000x64, .f32⟩
  | 92 => ⟨S_, .f32⟩
  | 93 => ⟨S100000x1, .f32⟩
  | 94 => ⟨S100000x1, .f32⟩
  | 95 => ⟨S100000x1, .f32⟩
  | 96 => ⟨S100000x64, .f32⟩
  | 97 => ⟨S100000x64, .f32⟩
  | 98 => ⟨S1x64, .f32⟩
  | 99 => ⟨S100000x64, .f32⟩
  | 100 => ⟨S100000x64, .f32⟩
  | 101 => ⟨S1x64, .f32⟩
  | 102 => ⟨S100000x64, .f32⟩
  | 103 => ⟨S100000x64, .f32⟩
  | 104 => ⟨S100000x64, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000x64, .f32⟩
  | 114 => ⟨S3300000x1, .f32⟩
  | 115 => ⟨S3300000x64, .f32⟩
  | 116 => ⟨S3300000x64, .f32⟩
  | 117 => ⟨S_, .f32⟩
  | 118 => ⟨S100000x64, .f32⟩
  | 119 => ⟨S3300000x1, .i32⟩
  | 120 => ⟨S100000x64, .f32⟩
  | 121 => ⟨S1x64, .f32⟩
  | 122 => ⟨S100000x64, .f32⟩
  | 123 => ⟨S100000x64, .f32⟩
  | 124 => ⟨S_, .f32⟩
  | 125 => ⟨S100000x64, .f32⟩
  | 126 => ⟨S100000x64, .f32⟩
  | 127 => ⟨S_, .f32⟩
  | _ => ⟨S100000x128, .f32⟩

abbrev hbmTy0_1 (i : Nat) : BufTy := match i % 128 with
  | 0 => ⟨S100000, .f32⟩
  | 1 => ⟨S100000x1, .f32⟩
  | 2 => ⟨S_, .f32⟩
  | 3 => ⟨S100000x1, .f32⟩
  | 4 => ⟨S100000x1, .f32⟩
  | 5 => ⟨S100000x64, .f32⟩
  | 6 => ⟨S100000x64, .f32⟩
  | 7 => ⟨S100000x64, .f32⟩
  | 8 => ⟨S_, .f32⟩
  | 9 => ⟨S100000, .f32⟩
  | 10 => ⟨S100000x1, .f32⟩
  | 11 => ⟨S_, .f32⟩
  | 12 => ⟨S100000x1, .f32⟩
  | 13 => ⟨S100000x1, .f32⟩
  | 14 => ⟨S100000x64, .f32⟩
  | 15 => ⟨S100000x64, .f32⟩
  | 16 => ⟨S_, .f32⟩
  | 17 => ⟨S100000x1, .f32⟩
  | 18 => ⟨S100000x1, .f32⟩
  | 19 => ⟨S100000x1, .f32⟩
  | 20 => ⟨S100000x64, .f32⟩
  | 21 => ⟨S100000x64, .f32⟩
  | 22 => ⟨S1x64, .f32⟩
  | 23 => ⟨S100000x64, .f32⟩
  | 24 => ⟨S100000x64, .f32⟩
  | 25 => ⟨S1x64, .f32⟩
  | 26 => ⟨S100000x64, .f32⟩
  | 27 => ⟨S100000x64, .f32⟩
  | 28 => ⟨S100000x64, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000x64, .f32⟩
  | 38 => ⟨S3300000x1, .f32⟩
  | 39 => ⟨S3300000x64, .f32⟩
  | 40 => ⟨S3300000x64, .f32⟩
  | 41 => ⟨S_, .f32⟩
  | 42 => ⟨S100000x64, .f32⟩
  | 43 => ⟨S3300000x1, .i32⟩
  | 44 => ⟨S100000x64, .f32⟩
  | 45 => ⟨S1x64, .f32⟩
  | 46 => ⟨S100000x64, .f32⟩
  | 47 => ⟨S100000x64, .f32⟩
  | 48 => ⟨S_, .f32⟩
  | 49 => ⟨S100000x64, .f32⟩
  | 50 => ⟨S100000x64, .f32⟩
  | 51 => ⟨S_, .f32⟩
  | 52 => ⟨S100000, .f32⟩
  | 53 => ⟨S100000x1, .f32⟩
  | 54 => ⟨S_, .f32⟩
  | 55 => ⟨S100000x1, .f32⟩
  | 56 => ⟨S100000x1, .f32⟩
  | 57 => ⟨S100000x64, .f32⟩
  | 58 => ⟨S100000x64, .f32⟩
  | 59 => ⟨S100000x64, .f32⟩
  | 60 => ⟨S_, .f32⟩
  | 61 => ⟨S100000, .f32⟩
  | 62 => ⟨S100000x1, .f32⟩
  | 63 => ⟨S_, .f32⟩
  | 64 => ⟨S100000x1, .f32⟩
  | 65 => ⟨S100000x1, .f32⟩
  | 66 => ⟨S100000x64, .f32⟩
  | 67 => ⟨S100000x64, .f32⟩
  | 68 => ⟨S_, .f32⟩
  | 69 => ⟨S100000x1, .f32⟩
  | 70 => ⟨S100000x1, .f32⟩
  | 71 => ⟨S100000x1, .f32⟩
  | 72 => ⟨S100000x64, .f32⟩
  | 73 => ⟨S100000x64, .f32⟩
  | 74 => ⟨S1x64, .f32⟩
  | 75 => ⟨S100000x64, .f32⟩
  | 76 => ⟨S100000x64, .f32⟩
  | 77 => ⟨S1x64, .f32⟩
  | 78 => ⟨S100000x64, .f32⟩
  | 79 => ⟨S100000x64, .f32⟩
  | 80 => ⟨S100000x4, .f32⟩
  | 81 => ⟨S1x4, .f32⟩
  | 82 => ⟨S100000x4, .f32⟩
  | 83 => ⟨S100000x4, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_13 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_c_14 : Ref sig .tc := ⟨.hbm, 105, rfl⟩
abbrev main_v73 : Ref sig .tc := ⟨.hbm, 106, rfl⟩
abbrev main_v74 : Ref sig .tc := ⟨.hbm, 107, rfl⟩
abbrev main_c_15 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_16 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_call2_cst : Ref sig .tc := ⟨.hbm, 124, rfl⟩
abbrev main_call2_v0 : Ref sig .tc := ⟨.hbm, 125, rfl⟩
abbrev main_v89 : Ref sig .tc := ⟨.hbm, 126, rfl⟩
abbrev main_cst_17 : Ref sig .tc := ⟨.hbm, 127, rfl⟩
abbrev main_v90 : Ref sig .tc := ⟨.hbm, 128, rfl⟩
abbrev main_v91 : Ref sig .tc := ⟨.hbm, 129, rfl⟩
abbrev main_cst_18 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_19 : Ref sig .tc := ⟨.hbm, 136, rfl⟩
abbrev main_v97 : Ref sig .tc := ⟨.hbm, 137, rfl⟩
abbrev main_v98 : Ref sig .tc := ⟨.hbm, 138, rfl⟩
abbrev main_cst_20 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_21 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_c_22 : Ref sig .tc := ⟨.hbm, 157, rfl⟩
abbrev main_v115 : Ref sig .tc := ⟨.hbm, 158, rfl⟩
abbrev main_v116 : Ref sig .tc := ⟨.hbm, 159, rfl⟩
abbrev main_c_23 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_cst_24 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_call3_cst : Ref sig .tc := ⟨.hbm, 176, rfl⟩
abbrev main_call3_v0 : Ref sig .tc := ⟨.hbm, 177, rfl⟩
abbrev main_v131 : Ref sig .tc := ⟨.hbm, 178, rfl⟩
abbrev main_cst_25 : Ref sig .tc := ⟨.hbm, 179, rfl⟩
abbrev main_v132 : Ref sig .tc := ⟨.hbm, 180, rfl⟩
abbrev main_v133 : Ref sig .tc := ⟨.hbm, 181, rfl⟩
abbrev main_cst_26 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_cst_27 : Ref sig .tc := ⟨.hbm, 188, rfl⟩
abbrev main_v139 : Ref sig .tc := ⟨.hbm, 189, rfl⟩
abbrev main_v140 : Ref sig .tc := ⟨.hbm, 190, rfl⟩
abbrev main_cst_28 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_cst_29 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x4_S100000x4_1_0_0_1_n_n_wf : DotDims.WF S100000x64 S64x4 S100000x4 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x4_S100000x4_1_0_0_1_n_n : DotDims S100000x64 S64x4 S100000x4 where
  lhsContracting := [1]
  rhsContracting := [0]
  lhsNonContracting := [0]
  rhsNonContracting := [1]
  lhsBatch := []
  rhsBatch := []
  wf := dot_S100000x64_S64x4_S100000x4_1_0_0_1_n_n_wf

class Facts : Prop extends Facts₀ where

variable [Facts]
-- ==== Proof.LibStageRead.lean ====
/-
  Reading the fold of a straight line of host operations (program-independent; imports only the library).

  The contents of a program's buffers after a list of host operations is the fold of the operations' results over the
  contents before it. Two facts serve to read such a fold at one buffer. A concatenation of two operands can be written with the operands
  as plain arguments, so that a rewriting pass reaches them (as an entry of a list of shape-and-contents pairs it cannot).
  And one rewriting pass over the fold of a literal list gives, at any buffer, the composed operations of what the
  list finds: each operation's result at its own buffer is its function's value and at any other buffer what was
  there; the transports of contents between a buffer's own type and the value's type, which are along equations that
  hold by computation, are dropped.
-/
import Idealize.ShloMosaic.Lib.StableHlo.Run

noncomputable section

namespace Cert.StageRead

open Idealize.ShloMosaic Idealize.ShloMosaic.StableHlo

/-- A concatenation of two operands with the operands as plain arguments. -/
def concatPair {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- A concatenation of a two-entry list is the pair form of its two entries. -/
theorem concatenate_pair {α : Type} (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = concatPair t a s₁ s₂ h x₁ x₂ := rfl

/-- One rewriting pass over the fold of a literal list of operations, read at a buffer. -/
macro "stage_results" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', concatenate_pair,
      cast_eq, cast_cast, eq_mpr_eq_cast, eq_mp_eq_cast, eqRec_eq_cast]))

end Cert.StageRead

end
-- ==== Proof.RefValue.lean ====
/-
  The reference's run, read at its result buffer.

  The reference is two hundred host operations in a row, so its run leaves every buffer at the fold of the
  operations' results over the launch memory. Read at the result buffer, the fold is the composition of the
  operations' functions along the program's data flow — which is how the stage functions `val_main_vN` are defined,
  one operation at a time, each shared value named once: the fold at the result is the last stage of the argument
  arrays, and an argument's buffer is written by no operation.
-/
import proofs.«120807_j13108240187815_1_alg».proof.Proof.RefReadP
import proofs.«120807_j13108240187815_1_alg».proof.Proof.LibStageRead

set_option maxRecDepth 16384

noncomputable section

namespace Cert.ReferenceIdeal.RefValue

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo Cert.StageRead

variable {F : FTy → Type} [FloatOps F]

set_option maxHeartbeats 4000000 in
/-- The operations' fold at the result buffer is the last stage of the argument arrays. -/
theorem result_eq (m : (ℓ : Loc nD τ sig) → Buf (Elt F) ℓ) (c : Dev nD) :
    StableHlo.after (ops (F := F)) (launchContents m c) (Proc.devRef .tc main_v159)
      = val_main_v159 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  stage_results
  simp only [val_main_v0, val_main_v1, val_main_v2, val_main_v3, val_main_v4, val_main_v5, val_main_v6, val_main_cst, val_main_v7, val_main_cst_0, val_main_v8, val_main_v9, val_main_v10, val_main_cst_1, val_main_v11, val_main_v12, val_main_v13, val_main_cst_2, val_main_call0_v0, val_main_call0_v1, val_main_v14, val_main_c, val_main_v15, val_main_v16, val_main_c_3, val_main_v17, val_main_v18, val_main_v19, val_main_v20, val_main_v21, val_main_c_4, val_main_v22, val_main_v23, val_main_c_5, val_main_v24, val_main_v25, val_main_v26, val_main_v27, val_main_v28, val_main_v29, val_main_v30, val_main_c_6, val_main_v31, val_main_v32, val_main_c_7, val_main_v33, val_main_v34, val_main_v35, val_main_v36, val_main_v37, val_main_v38, val_main_v39, val_main_v40, val_main_cst_8, val_main_v41, val_main_v42, val_main_v43, val_main_v44, val_main_v45, val_main_v46, val_main_call1_cst, val_main_call1_v0, val_main_v47, val_main_cst_9, val_main_v48, val_main_v49, val_main_cst_10, val_main_v50, val_main_v51, val_main_v52, val_main_v53, val_main_v54, val_main_cst_11, val_main_v55, val_main_v56, val_main_cst_12, val_main_v57, val_main_v58, val_main_v59, val_main_v60, val_main_cst_13, val_main_v61, val_main_v62, val_main_v63, val_main_v64, val_main_v65, val_main_v66, val_main_v67, val_main_v68, val_main_v69, val_main_v70, val_main_v71, val_main_v72, val_main_c_14, val_main_v73, val_main_v74, val_main_c_15, val_main_v75, val_main_v76, val_main_v77, val_main_v78, val_main_v79, val_main_v80, val_main_v81, val_main_v82, val_main_cst_16, val_main_v83, val_main_v84, val_main_v85, val_main_v86, val_main_v87, val_main_v88, val_main_call2_cst, val_main_call2_v0, val_main_v89, val_main_cst_17, val_main_v90, val_main_v91, val_main_cst_18, val_main_v92, val_main_v93, val_main_v94, val_main_v95, val_main_v96, val_main_cst_19, val_main_v97, val_main_v98, val_main_cst_20, val_main_v99, val_main_v100, val_main_v101, val_main_v102, val_main_cst_21, val_main_v103, val_main_v104, val_main_v105, val_main_v106, val_main_v107, val_main_v108, val_main_v109, val_main_v110, val_main_v111, val_main_v112, val_main_v113, val_main_v114, val_main_c_22, val_main_v115, val_main_v116, val_main_c_23, val_main_v117, val_main_v118, val_main_v119, val_main_v120, val_main_v121, val_main_v122, val_main_v123, val_main_v124, val_main_cst_24, val_main_v125, val_main_v126, val_main_v127, val_main_v128, val_main_v129, val_main_v130, val_main_call3_cst, val_main_call3_v0, val_main_v131, val_main_cst_25, val_main_v132, val_main_v133, val_main_cst_26, val_main_v134, val_main_v135, val_main_v136, val_main_v137, val_main_v138, val_main_cst_27, val_main_v139, val_main_v140, val_main_cst_28, val_main_v141, val_main_v142, val_main_v143, val_main_v144, val_main_cst_29, val_main_v145, val_main_v146, val_main_v147, val_main_v148, val_main_v149, val_main_v150, val_main_v151, val_main_v152, val_main_v153, val_main_v154, val_main_v155, val_main_v156, val_main_v157, val_main_v158, val_main_v159]
  rfl

set_option maxHeartbeats 4000000 in
/-- Every weakly fair execution of the reference terminates, nothing faulting, with the result buffer at the last
    stage of the argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v159) = val_main_v159 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v159).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq scopedRefs_eq scopedSems_eq defs main (fun _ => ops) main_eq (fun _ => ops_sub) m ρ)

end Cert.ReferenceIdeal.RefValue

end
-- ==== Proof.RunAll.lean ====
/-
  The idealized kernel's whole run, read at every buffer.

  The program is thirteen segments: stretches of host operations and seven tiled regions. The contents of every
  buffer at each segment boundary are a fold from the launch memory (a host stretch applies its operations; a
  region leaves its arrays at what its write-backs left and every other buffer as entered), and the last
  boundary's contents are `Gen.W13`. This module states the run with that conclusion kept whole: every weakly fair
  execution terminates, nothing faulting, and EVERY buffer that lives across the program ends at `Gen.W13`'s
  contents — the result buffer included, which is what a value claim needs and the frame claim forgets.
-/
import proofs.«120807_j13108240187815_1_alg».proof.Proof.Gen.KernelIdeal.Frame

set_option maxRecDepth 16384

noncomputable section

namespace Cert.KernelIdeal.RunAll

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every buffer that outlives a
    region at the last segment boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

/-- The run read at one buffer that is not scoped to a region: it ends at the last boundary's contents. -/
theorem run_at (b : Ref sig .tc) (hb : ¬ (Proc.devRef .tc b : DevRef τ sig).isScoped) :
    θ_run defs (onTc (τ := τ) (main (F := F))) ⟨m, fun _ => 0, ρ⟩ (fun r => ∀ c : Dev nD,
      r.2.mem ((c.tc : Thread nD τ).loc b) = W13 m ρ c (Proc.devRef .tc b)) :=
  (θ_run defs _ _).mono (fun r h c => h c _ (mem_uc b hb)) (run_all m ρ)

end Cert.KernelIdeal.RunAll

end
-- ==== Proof.Spec.lean ====
/-
  The mathematics both programs compute, entry by entry, on the extended reals.

  A graph layer is: project each node's features by a weight matrix (a plain product, `dotAt`), mix the projected
  rows along the edges (gather, scale, sum into the destination: done by the same host operations in both
  programs, never opened here), add a bias and clamp at zero (`zrow`), then normalise each node's 64 features to
  zero mean and unit variance, scale and shift (`ln`). The classifier is one more plain product plus a bias.
  Every definition here is over a single row (a function of the feature coordinate), so that a tiled kernel and a
  whole-array host program can both be read against it at one entry `(r, j)`.
-/
import Idealize.ShloMosaic.Lib.ValueIdx
import Idealize.ShloMosaic.PureOps.Ideal

noncomputable section

namespace Cert.Spec

open Idealize.ShloMosaic

/-- The word of the float zero a layer clamps against. -/
abbrev zeroW : BitVec 32 := 0x00000000#32
/-- The word of 64.0, the number of features a row's mean divides by. -/
abbrev n64W : BitVec 32 := 0x42800000#32
/-- The word of the variance's guard (the float nearest 1e-5), the same literal in both programs. -/
abbrev epsW : BitVec 32 := 0x3727C5AC#32

/-- One entry of a plain matrix product: row `x` against column `w`, summed over the `K` contracted coordinates. -/
def dotAt {K : ℕ} (x w : Fin K → EReal) : EReal := ∑ k : Fin K, x k * w k

/-- A row after bias and clamp: `max (a k + b k) 0`. -/
def zrow (a b : Fin 64 → EReal) : Fin 64 → EReal := fun k => max (a k + b k) (Ideal.ofBits .f32 zeroW)

/-- The mean of a row of 64 features. -/
def mean (z : Fin 64 → EReal) : EReal := Ideal.div (∑ k : Fin 64, z k) (Ideal.ofBits .f32 n64W)

/-- The variance of a row of 64 features about its mean. -/
def var (z : Fin 64 → EReal) : EReal :=
  Ideal.div (∑ k : Fin 64, (z k - mean z) * (z k - mean z)) (Ideal.ofBits .f32 n64W)

/-- Feature `j` of a normalised row, scaled by `g` and shifted by `be`. -/
def ln (z : Fin 64 → EReal) (j : Fin 64) (g be : EReal) : EReal :=
  (z j - mean z) * Ideal.rsqrt (var z + Ideal.ofBits .f32 epsW) * g + be

/-- Feature `j` of a layer's output row, from the mixed row `a`, the bias `b`, the scale `g` and the shift `be`. -/
def postAt (a b g be : Fin 64 → EReal) (j : Fin 64) : EReal := ln (zrow a b) j (g j) (be j)

end Cert.Spec

end
-- ==== Proof.LibPlainDot.lean ====
/-
  A plain matrix product read at an index (program-independent; imports only the library).

  For the dimension numbers of an ordinary product of an `[M, K]` matrix by a `[K, N]` matrix — the left operand's
  second axis contracted with the right operand's first, no batch axis — the contraction index is one coordinate
  `k : Fin K`, the left operand is read at `(r, k)` and the right one at `(k, j)`. So at the ideal values both the
  kernel's matrix product into a zero accumulator and the host's general product are, at `(r, j)`, the sum over `k` of
  the products of the entries `(r, k)` and `(k, j)`.
-/
import Idealize.ShloMosaic.Lib.ValueIdx
import Idealize.ShloMosaic.PureOps.Ideal.Laws

noncomputable section

namespace Cert.PlainDot

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- At output `(r, j)` and contraction coordinate `k` the left operand is read at `(r, k)`. -/
theorem lhsIdx_plain (M K N : ℕ) (r : Fin M) (j : Fin N) (k : Fin K) :
    (DotDims.plain M K N).lhsIdx (ix2 r j) ((contrFin M K N).symm k) = ix2 r k := by
  funext a; apply Fin.ext
  match a with
  | ⟨0, _⟩ => rfl
  | ⟨1, _⟩ =>
    refine ((DotDims.plain M K N).lhsIdx_val_of_single (cl := (1 : Fin 2)) rfl (ix2 r j) _).trans ?_
    exact contrEquiv1_symm_val (DotDims.plain M K N) K rfl rfl k

/-- At output `(r, j)` and contraction coordinate `k` the right operand is read at `(k, j)`. -/
theorem rhsIdx_plain (M K N : ℕ) (r : Fin M) (j : Fin N) (k : Fin K) :
    (DotDims.plain M K N).rhsIdx (ix2 r j) ((contrFin M K N).symm k) = ix2 k j := by
  funext a; apply Fin.ext
  match a with
  | ⟨0, _⟩ =>
    refine ((DotDims.plain M K N).rhsIdx_val_of_single (cr := (0 : Fin 2)) rfl (ix2 r j) _).trans ?_
    exact contrEquiv1_symm_val (DotDims.plain M K N) K rfl rfl k
  | ⟨1, _⟩ => rfl

/-- The contraction's sum of a plain product at `(r, j)`, over the coordinate `k`. -/
theorem sum_plain {M K N : ℕ} (L : (⟨2, ![M, K]⟩ : Shape).Idx → EReal) (R : (⟨2, ![K, N]⟩ : Shape).Idx → EReal)
    (r : Fin M) (j : Fin N) :
    (∑ q : (DotDims.plain M K N).contr.Idx,
        L ((DotDims.plain M K N).lhsIdx (ix2 r j) q) * R ((DotDims.plain M K N).rhsIdx (ix2 r j) q))
      = ∑ k : Fin K, L (ix2 r k) * R (ix2 k j) := by
  rw [← Equiv.sum_comp (contrFin M K N).symm]
  exact Finset.sum_congr rfl fun k _ => by rw [lhsIdx_plain, rhsIdx_plain]

/-- At the ideal values the kernel's matrix product into the zero accumulator, read at `(r, j)`. -/
theorem matmul_plain_apply {M K N : ℕ} {φ₁ φ₂ : FTy} (prec : Option ContractPrecision)
    (lhs : FVec Ideal ⟨2, ![M, K]⟩ φ₁) (rhs : FVec Ideal ⟨2, ![K, N]⟩ φ₂) (r : Fin M) (j : Fin N) :
    FloatOps.matmul (DotDims.plain M K N) prec lhs rhs (constant ⟨2, ![M, N]⟩ .f32 0x00000000#32) (ix2 r j)
      = ∑ k : Fin K, lhs (ix2 r k) * rhs (ix2 k j) :=
  (Ideal.matmul_constant_zero_apply _ prec lhs rhs (ix2 r j)).trans (sum_plain lhs rhs r j)

/-- At the ideal values the host's general product, read at `(r, j)`. -/
theorem dotGeneral_plain_apply {M K N : ℕ} {φ₁ φ₂ : FTy} (prec : Option ContractPrecision) (sched : HostSchedule)
    (lhs : FVec Ideal ⟨2, ![M, K]⟩ φ₁) (rhs : FVec Ideal ⟨2, ![K, N]⟩ φ₂) (r : Fin M) (j : Fin N) :
    FloatOps.dotGeneral (DotDims.plain M K N) prec sched lhs rhs (ix2 r j)
      = ∑ k : Fin K, lhs (ix2 r k) * rhs (ix2 k j) :=
  (Ideal.dotGeneral_apply _ prec sched lhs rhs (ix2 r j)).trans (sum_plain lhs rhs r j)

end Cert.PlainDot

end
-- ==== Proof.LibRowOps.lean ====
/-
  Row-wise operations of a two-axis vector, read at an index (program-independent; imports only the library).

  A reduction along the rows of an `[a, b]` vector that keeps the reduced axis as a unit axis passes through three
  operations: the reduction itself into `[a]`, a shape cast of that into the column `[a, 1]`, and a broadcast of the
  column back to `[a, b]`. Read at `(i, j)`, the cast column at `(i, 0)` is entry `i` of the reduced vector, and the
  broadcast column at `(i, j)` is the column's entry `(i, 0)`: the value depends on the row alone. At the ideal values
  the reduction at row `i` is the sum over `k` of the entries `(i, k)`, or the fold of `max` over them from the
  accumulator's value, in any order.
-/
import Idealize.ShloMosaic.Lib.ValueIdx
import Idealize.ShloMosaic.Lib.Pipeline.Value
import Idealize.ShloMosaic.PureOps.Ideal.Laws

noncomputable section

namespace Cert.RowOps

open Idealize.ShloMosaic Idealize.ShloMosaic.ValueIdx

variable {α : Type}

/-- An `[a]` vector cast to the column `[a, 1]` reads, at `(i, z)`, the operand's entry `i`: both sit at row-major
    position `i`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column's entry `(i, 0)`: the row is kept and
    the unit axis is read at its only coordinate. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      by_cases ha : a = 1
      · rw [if_pos ha]; have := i.isLt; omega
      · rw [if_neg ha]
    | ⟨1, _⟩ => by
      show 0 = if (1 : Nat) = 1 then 0 else j.val
      rw [if_pos rfl])

/-- The index over row `i` with coordinate `k` put back on the reduced axis is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext c; apply Fin.ext
  fin_cases c <;> rfl

/-- At the ideal values a sum along the rows of an `[a, b]` vector is, at row `i`, the sum of that row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- At the ideal values a maximum along the rows of an `[a, b]` vector is, at row `i`, the fold of `max` over that
    row's entries from the accumulator's value, in any order. -/
theorem multiReduction_maximumf_row {a b : ℕ} {φ : FTy} (X : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  rw [hf]
  rfl

end Cert.RowOps

end
-- ==== Proof.Bodies.lean ====
/-
  The seven kernel bodies' stored values, read at one entry, on the extended reals.

  Each linear body is a plain matrix product of its two operands (the format change to the narrower float is the
  identity on the extended reals) into a zero accumulator: at `(p, q)` it is the sum over the contracted coordinate
  of the products of the entries `(p, k)` and `(k, q)`. The classifier adds a row bias broadcast over the rows.
  Each post-processing body adds a row bias, clamps at zero, takes the row's mean and variance by lane sums kept as a
  unit axis and broadcast back, normalises, scales and shifts: at `(p, q)` it is feature `q` of the layer's output row.
-/
import proofs.«120807_j13108240187815_1_alg».proof.Proof.Gen.KernelIdeal.Skeleton
import proofs.«120807_j13108240187815_1_alg».proof.Proof.Spec
import proofs.«120807_j13108240187815_1_alg».proof.Proof.LibPlainDot
import proofs.«120807_j13108240187815_1_alg».proof.Proof.LibRowOps
import Idealize.ShloMosaic.Lib.ValueLayout

noncomputable section

namespace Cert.Bodies

open Cert.KernelIdeal Cert.KernelIdeal.Gen Idealize.ShloMosaic Idealize.ShloMosaic.ValueIdx Cert.Spec

/-- The dimension numbers of the `[5000, 128]` by `[128, 64]` product are the plain ones. -/
theorem dot0_plain : dot_S5000x128_S128x64_S5000x64_1_0_0_1_n_n = DotDims.plain 5000 128 64 := rfl
/-- The dimension numbers of the `[5000, 64]` by `[64, 64]` product are the plain ones. -/
theorem dot2_plain : dot_S5000x64_S64x64_S5000x64_1_0_0_1_n_n = DotDims.plain 5000 64 64 := rfl
/-- The dimension numbers of the `[5000, 64]` by `[64, 4]` product are the plain ones. -/
theorem dot6_plain : dot_S5000x64_S64x4_S5000x4_1_0_0_1_n_n = DotDims.plain 5000 64 4 := rfl

/-- The second linear body at `(p, q)`: row `p` of the operand against column `q` of the weights. -/
theorem pay_lin2 (x : Vec Ideal S5000x64 .f32) (w : Vec Ideal S64x64 .f32) (p : Fin 5000) (q : Fin 64) :
    k2_pay1 (F := Ideal) x w (ix2 p q) = dotAt (fun k : Fin 64 => x (ix2 p k)) (fun k : Fin 64 => w (ix2 k q)) := by
  unfold k2_pay1
  rw [dot2_plain, shapeCast_self]
  exact Cert.PlainDot.matmul_plain_apply none _ _ p q

/-- The third linear body at `(p, q)`: the same product as the second. -/
theorem pay_lin4 (x : Vec Ideal S5000x64 .f32) (w : Vec Ideal S64x64 .f32) (p : Fin 5000) (q : Fin 64) :
    k4_pay1 (F := Ideal) x w (ix2 p q) = dotAt (fun k : Fin 64 => x (ix2 p k)) (fun k : Fin 64 => w (ix2 k q)) := by
  unfold k4_pay1
  rw [dot2_plain, shapeCast_self]
  exact Cert.PlainDot.matmul_plain_apply none _ _ p q

/-- The first linear body at `(p, q)`: row `p` of the `[5000, 128]` operand against column `q` of the weights. -/
theorem pay_lin0 (x : Vec Ideal S5000x128 .f32) (w : Vec Ideal S128x64 .f32) (p : Fin 5000) (q : Fin 64) :
    k0_pay1 (F := Ideal) x w (ix2 p q) = dotAt (fun k : Fin 128 => x (ix2 p k)) (fun k : Fin 128 => w (ix2 k q)) := by
  unfold k0_pay1
  rw [dot0_plain]
  exact Cert.PlainDot.matmul_plain_apply none _ _ p q

/-- The classifier body at `(p, q)`: the plain product plus the bias row's entry `q`. -/
theorem pay_cls (x : Vec Ideal S5000x64 .f32) (w : Vec Ideal S64x4 .f32) (b : Vec Ideal S1x4 .f32) (p : Fin 5000) (q : Fin 4) :
    k6_pay1 (F := Ideal) x w b (ix2 p q) = dotAt (fun k : Fin 64 => x (ix2 p k)) (fun k : Fin 64 => w (ix2 k q)) + b (ix2 (0 : Fin 1) q) := by
  unfold k6_pay1
  rw [dot6_plain, shapeCast_self, shapeCast_self, addf_apply, broadcastTo_1b_ab_apply]
  exact congrArg (· + b (ix2 (0 : Fin 1) q)) (Cert.PlainDot.matmul_plain_apply none _ _ p q)

/-- The reciprocal square root of a vector, read at an index. -/
theorem rsqrt_apply' {s : Shape} {φ : FTy} (a : FVec Ideal s φ) (i : s.Idx) : rsqrt a i = Ideal.rsqrt (a i) := rfl

/-- A lane sum of a `[5000, 64]` vector at row `p` is the sum of that row's 64 entries. -/
theorem rowSum_apply (Z : FVec Ideal S5000x64 .f32) (hφ : FTy.f32 = FTy.f32 ∨ FTy.f32 = FTy.bf16)
    (hacc : @Eq (BitVec FTy.f32.bits) 0x00000000#32 0x00000000#32) (p : Fin 5000) :
    multiReduction .add [1] S5000 Z 0x00000000#32 reduces_S5000x64_S5000 hφ hacc (ix1 p) = ∑ k : Fin 64, Z (ix2 p k) :=
  Cert.RowOps.multiReduction_add_row Z _ _ hφ hacc p

/-- The first post-processing body at `(p, q)`: feature `q` of the layer's output row built from row `p` of the mixed
    array, the bias, the scale and the shift. The two lane sums are read by `rowSum_apply`, the clamped row, the mean
    column and the variance column by pushing the index through the pointwise operations and the keep-dims
    cast-and-broadcast; what is left is the specification's expression, term for term. -/
theorem pay_post1 (a : Vec Ideal S5000x64 .f32) (b g be : Vec Ideal S1x64 .f32) (p : Fin 5000) (q : Fin 64) :
    k1_pay1 (F := Ideal) a b g be (ix2 p q)
      = postAt (fun k : Fin 64 => a (ix2 p k)) (fun k : Fin 64 => b (ix2 (0 : Fin 1) k)) (fun k : Fin 64 => g (ix2 (0 : Fin 1) k)) (fun k : Fin 64 => be (ix2 (0 : Fin 1) k)) q := by
  unfold k1_pay1
  simp only [shapeCast_self, addf_apply, mulf_apply, subf_apply, divf_apply, maximumf_apply, broadcast_apply, rsqrt_apply',
    broadcastTo_1b_ab_apply, Cert.RowOps.broadcastTo_a1_ab_apply, Cert.RowOps.shapeCast_a_a1_apply]
  rw [rowSum_apply, rowSum_apply]
  simp only [addf_apply, mulf_apply, subf_apply, divf_apply, maximumf_apply, broadcast_apply,
    broadcastTo_1b_ab_apply, Cert.RowOps.broadcastTo_a1_ab_apply, Cert.RowOps.shapeCast_a_a1_apply]
  rw [rowSum_apply]
  simp only [addf_apply, maximumf_apply, broadcast_apply, broadcastTo_1b_ab_apply]
  rfl

/-- The second post-processing body is the same term as the first. -/
theorem pay_post3 (a : Vec Ideal S5000x64 .f32) (b g be : Vec Ideal S1x64 .f32) (p : Fin 5000) (q : Fin 64) :
    k3_pay1 (F := Ideal) a b g be (ix2 p q)
      = postAt (fun k : Fin 64 => a (ix2 p k)) (fun k : Fin 64 => b (ix2 (0 : Fin 1) k)) (fun k : Fin 64 => g (ix2 (0 : Fin 1) k)) (fun k : Fin 64 => be (ix2 (0 : Fin 1) k)) q :=
  pay_post1 a b g be p q

/-- The third post-processing body is the same term as the first. -/
theorem pay_post5 (a : Vec Ideal S5000x64 .f32) (b g be : Vec Ideal S1x64 .f32) (p : Fin 5000) (q : Fin 64) :
    k5_pay1 (F := Ideal) a b g be (ix2 p q)
      = postAt (fun k : Fin 64 => a (ix2 p k)) (fun k : Fin 64 => b (ix2 (0 : Fin 1) k)) (fun k : Fin 64 => g (ix2 (0 : Fin 1) k)) (fun k : Fin 64 => be (ix2 (0 : Fin 1) k)) q :=
  pay_post1 a b g be p q

end Cert.Bodies

end
-- ==== Proof.Region0.lean ====
/-
  Region 0 (a projection), as one function of the arrays it finds.

  The region tiles the 100000 node rows into 20 blocks of 5000; at block `t` the body multiplies rows
  `5000 t … 5000 t + 4999` of its left operand by the whole weight matrix and stores the block of products. A row of a
  product depends only on that row of the left factor, so every block is the restriction of ONE whole-array
  function — entry `(r, j)` is row `r` of the left operand against column `j` of the weights — and the blocks cover the
  array: that function is what the output array holds after the region.
-/
import proofs.«120807_j13108240187815_1_alg».proof.Proof.Gen.KernelIdeal.Frame
import proofs.«120807_j13108240187815_1_alg».proof.Proof.Bodies
import proofs.«120807_j13108240187815_1_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The projected rows: entry `(r, j)` is row `r` of `X` against column `j` of `W`. -/
def G (X : S100000x128.Idx → EReal) (W : S128x64.Idx → EReal) : S100000x64.Idx → EReal :=
  fun i => dotAt (fun k : Fin 128 => X (ix2 (i 0) k)) (fun k : Fin 128 => W (ix2 k (i 1)))

/-- The printed index maps over the 20 grid points: the row blocks of the first operand and of the output move
    together, one block per point in order; every other operand is one whole block. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of `G` of the arrays as the region finds them. -/
theorem flushed_eq (c : Dev nD) (t : Fin cfg0.N) :
    (dat0 V c).flushed 2 t = ((cfg0.win 2).blk t).view.read (Elt Ideal) (G (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := idx_facts t
  have ht : t.val < 20 := by have h : t.val < grid0.N := t.isLt; have hN : grid0.N = 20 := N_0; omega
  funext y
  obtain ⟨p, q, rfl⟩ : ∃ (p : Fin 5000) (q : Fin 64), y = ix2 p q := ⟨y 0, y 1, eq_ix2 y⟩
  refine (Cert.Bodies.pay_lin0 (iblk0 V c 0 t) (iblk0 V c 1 t) p q).trans ?_
  have hp : p.val < 5000 := p.isLt
  let r : Fin 100000 := ⟨t.val * 5000 + p.val, by omega⟩
  have hout : ((cfg0.win 2).blk t).view.emb (ix2 p q) = ix2 r q := by
    funext a; apply Fin.ext
    match a with
    | ⟨0, _⟩ => show win0_2.index t (0 : Fin 2) * 5000 + 1 * p.val = t.val * 5000 + p.val; omega
    | ⟨1, _⟩ => show win0_2.index t (1 : Fin 2) * 64 + 1 * q.val = q.val; omega
  have hin0 : ∀ k : Fin 128, ((cfg0.win 0).blk t).view.emb (ix2 p k) = ix2 r k := by
    intro k; funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have hin1 : ∀ k : Fin 128, ((cfg0.win 1).blk t).view.emb (ix2 k q) = ix2 k q := by
    intro k; funext a; apply Fin.ext
    match a with
    | ⟨0, _⟩ => show win0_1.index t (0 : Fin 2) * 128 + 1 * k.val = k.val; omega
    | ⟨1, _⟩ => show win0_1.index t (1 : Fin 2) * 64 + 1 * q.val = q.val; omega
  show dotAt (fun k : Fin 128 => V c main_arg0 (((cfg0.win 0).blk t).view.emb (ix2 p k)))
      (fun k : Fin 128 => V c main_arg2 (((cfg0.win 1).blk t).view.emb (ix2 k q)))
    = G (V c main_arg0) (V c main_arg2) (((cfg0.win 2).blk t).view.emb (ix2 p q))
  rw [hout]
  simp only [hin0, hin1]
  rfl

/-- An index of the output array is in point `t`'s block iff each coordinate is in the block's range. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v36).slice (win0_2.rect t)).set ↔ _
  rw [View.set_slice_whole, Rect.mem_set_unit]
  exact Iff.rfl

/-- Every index of the output array is in the block of the point that owns its row, `r / 5000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  let t : Fin cfg0.N := ⟨(i 0).val / 5000, by show _ < grid0.N; rw [hN]; omega⟩
  obtain ⟨e0, e1, e2, e3, e4, e5⟩ := idx_facts t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region the output array holds `G` of the arrays the region found. -/
theorem value (c : Dev nD) : (dat0 V c).arrAt 2 cfg0.N = G (V c main_arg0) (V c main_arg2) :=
  (dat0 V c).arrAt_eq_of_cover 2 _ (fun t _ => flushed_eq V c t) cover

end Cert.KernelIdeal.Region0

end
-- ==== Proof.Region1.lean ====
/-
  Region 1 (bias, clamp and normalisation of a layer), as one function of the arrays it finds.

  The region tiles the 100000 node rows into 20 blocks of 5000; at block `t` the body adds the bias row to rows
  `5000 t … 5000 t + 4999` of the mixed rows, clamps at zero, and normalises each row by its own mean and variance
  before the scale and shift. Every step is row by row, so every block is the restriction of ONE whole-array
  function — entry `(r, j)` is feature `j` of the normalised row `r` — and the blocks cover the array: that function
  is what the output array holds after the region.
-/
import proofs.«120807_j13108240187815_1_alg».proof.Proof.Gen.KernelIdeal.Frame
import proofs.«120807_j13108240187815_1_alg».proof.Proof.Bodies
import proofs.«120807_j13108240187815_1_alg».proof.Proof.Spec
import Idealize.ShloMosaic.Lib.Pipeline.Value
import Idealize.ShloMosaic.Lib.ValueIdx

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer's output rows: entry `(r, j)` is feature `j` of row `r` of `A` after bias `b`, clamp, normalisation, scale `g` and shift `be` (one-row matrices). -/
def G (A : S100000x64.Idx → EReal) (b g be : S1x64.Idx → EReal) : S100000x64.Idx → EReal :=
  fun i => postAt (fun k : Fin 64 => A (ix2 (i 0) k)) (fun k : Fin 64 => b (ix2 (0 : Fin 1) k)) (fun k : Fin 64 => g (ix2 (0 : Fin 1) k))
    (fun k : Fin 64 => be (ix2 (0 : Fin 1) k)) (i 1)

/-- The printed index maps over the 20 grid points: the row blocks of the first operand and of the output move
    together, one block per point in order; every other operand is one whole block. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = t.val
    ∧ win1_4.index t (1 : Fin 2) = 0 :=
  (by decide +kernel : ∀ t : Fin grid1.N, _)

/-- What point `t` writes back is block `t` of `G` of the arrays as the region finds them. -/
theorem flushed_eq (c : Dev nD) (t : Fin cfg1.N) :
    (dat1 V c).flushed 4 t = ((cfg1.win 4).blk t).view.read (Elt Ideal) (G (V c main_v49) (V c main_v32) (V c main_v30) (V c main_v31)) := by
  show (cfg1.win 4).cut (grid1.coords t) ((dat1 V c).after 4 t) = _
  rw [after1_4]
  unfold out1_4
  rw [View.canon_unit_zero hz]
  simp only [View.ld_unit_zero (S := S5000x64) hz, View.ld_unit_zero (S := S1x64) hz]
  obtain ⟨e0, e1, e2, e3, e4, e5, e6, e7, e8, e9⟩ := idx_facts t
  have ht : t.val < 20 := by have h : t.val < grid1.N := t.isLt; have hN : grid1.N = 20 := N_1; omega
  funext y
  obtain ⟨p, q, rfl⟩ : ∃ (p : Fin 5000) (q : Fin 64), y = ix2 p q := ⟨y 0, y 1, eq_ix2 y⟩
  refine (Cert.Bodies.pay_post1 (iblk1 V c 0 t) (iblk1 V c 1 t) (iblk1 V c 2 t) (iblk1 V c 3 t) p q).trans ?_
  have hp : p.val < 5000 := p.isLt
  let r : Fin 100000 := ⟨t.val * 5000 + p.val, by omega⟩
  have hout : ((cfg1.win 4).blk t).view.emb (ix2 p q) = ix2 r q := by
    funext a; apply Fin.ext
    match a with
    | ⟨0, _⟩ => show win1_4.index t (0 : Fin 2) * 5000 + 1 * p.val = t.val * 5000 + p.val; omega
    | ⟨1, _⟩ => show win1_4.index t (1 : Fin 2) * 64 + 1 * q.val = q.val; omega
  have hin0 : ∀ k : Fin 64, ((cfg1.win 0).blk t).view.emb (ix2 p k) = ix2 r k := by
    intro k; funext a; apply Fin.ext
    match a with
    | ⟨0, _⟩ => show win1_0.index t (0 : Fin 2) * 5000 + 1 * p.val = t.val * 5000 + p.val; omega
    | ⟨1, _⟩ => show win1_0.index t (1 : Fin 2) * 64 + 1 * k.val = k.val; omega
  have hin1 : ∀ k : Fin 64, ((cfg1.win 1).blk t).view.emb (ix2 (0 : Fin 1) k) = ix2 (0 : Fin 1) k := by
    intro k; funext a; apply Fin.ext
    match a with
    | ⟨0, _⟩ => show win1_1.index t (0 : Fin 2) * 1 + 1 * 0 = 0; omega
    | ⟨1, _⟩ => show win1_1.index t (1 : Fin 2) * 64 + 1 * k.val = k.val; omega
  have hin2 : ∀ k : Fin 64, ((cfg1.win 2).blk t).view.emb (ix2 (0 : Fin 1) k) = ix2 (0 : Fin 1) k := by
    intro k; funext a; apply Fin.ext
    match a with
    | ⟨0, _⟩ => show win1_2.index t (0 : Fin 2) * 1 + 1 * 0 = 0; omega
    | ⟨1, _⟩ => show win1_2.index t (1 : Fin 2) * 64 + 1 * k.val = k.val; omega
  have hin3 : ∀ k : Fin 64, ((cfg1.win 3).blk t).view.emb (ix2 (0 : Fin 1) k) = ix2 (0 : Fin 1) k := by
    intro k; funext a; apply Fin.ext
    match a with
    | ⟨0, _⟩ => show win1_3.index t (0 : Fin 2) * 1 + 1 * 0 = 0; omega
    | ⟨1, _⟩ => show win1_3.index t (1 : Fin 2) * 64 + 1 * k.val = k.val; omega
  show postAt (fun k : Fin 64 => V c main_v49 (((cfg1.win 0).blk t).view.emb (ix2 p k)))
      (fun k : Fin 64 => V c main_v32 (((cfg1.win 1).blk t).view.emb (ix2 (0 : Fin 1) k)))
      (fun k : Fin 64 => V c main_v30 (((cfg1.win 2).blk t).view.emb (ix2 (0 : Fin 1) k)))
      (fun k : Fin 64 => V c main_v31 (((cfg1.win 3).blk t).view.emb (ix2 (0 : Fin 1) k))) q
    = G (V c main_v49) (V c main_v32) (V c main_v30) (V c main_v31) (((cfg1.win 4).blk t).view.emb (ix2 p q))
  rw [hout]
  simp only [hin0, hin1, hin2, hin3]
  rfl

/-- An index of the output array is in point `t`'s block iff each coordinate is in the block's range. -/
theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v50).slice (win1_4.rect t)).set ↔ _
  rw [View.set_slice_whole, Rect.mem_set_unit]
  exact Iff.rfl

/-- Every index of the output array is in the block of the point that owns its row, `r / 5000`. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  have hN : grid1.N = 20 := N_1
  let t : Fin cfg1.N := ⟨(i 0).val / 5000, by show _ < grid1.N; rw [hN]; omega⟩
  obtain ⟨e0, e1, e2, e3, e4, e5, e6, e7, e8, e9⟩ := idx_facts t
  have ht : t.val = (i 0).val / 5000 := rfl
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- After the region the output array holds `G` of the arrays the region found. -/
theorem value (c : Dev nD) : (dat1 V c).arrAt 4 cfg1.N = G (V c main_v49) (V c main_v32) (V c main_v30) (V c main_v31) :=
  (dat1 V c).arrAt_eq_of_cover 4 _ (fun t _ => flushed_eq V c t) cover

end Cert.KernelIdeal.Region1

end
-- ==== Proof.Region2.lean ====
/-
  Region 2 (a projection), as one function of the arrays it finds.

  The region tiles the 100000 node rows into 20 blocks of 5000; at block `t` the body multiplies rows
  `5000 t … 5000 t + 4999` of its left operand by the whole weight matrix and stores the block of products. A row of a
  product depends only on that row of the left factor, so every block is the restriction of ONE whole-array
  function — entry `(r, j)` is row `r` of the left operand against column `j` of the weights — and the blocks cover the
  array: that function is what the output array holds after the region.
-/
import proofs.«120807_j13108240187815_1_alg».proof.Proof.Gen.KernelIdeal.Frame
import proofs.«120807_j13108240187815_1_alg».proof.Proof.Bodies
import proofs.«120807_j13108240187815_1_alg».proof.Proof.Spec
import Idealize.ShloMosaic.Lib.Pipeline.Value
import Idealize.ShloMosaic.Lib.ValueIdx

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The projected rows: entry `(r, j)` is row `r` of `X` against column `j` of `W`. -/
def G (X : S100000x64.Idx → EReal) (W : S64x64.Idx → EReal) : S100000x64.Idx → EReal :=
  fun i => dotAt (fun k : Fin 64 => X (ix2 (i 0) k)) (fun k : Fin 64 => W (ix2 k (i 1)))

/-- The printed index maps over the 20 grid points: the row blocks of the first operand and of the output move
    together, one block per point in order; every other operand is one whole block. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point `t` writes back is block `t` of `G` of the arrays as the region finds them. -/
theorem flushed_eq (c : Dev nD) (t : Fin cfg2.N) :
    (dat2 V c).flushed 2 t = ((cfg2.win 2).blk t).view.read (Elt Ideal) (G (V c main_v50) (V c main_arg4)) := by
  show (cfg2.win 2).cut (grid2.coords t) ((dat2 V c).after 2 t) = _
  rw [after2_2]
  unfold out2_2
  rw [View.canon_unit_zero hz]
  simp only [View.ld_unit_zero (S := S5000x64) hz, View.ld_unit_zero (S := S64x64) hz]
  obtain ⟨e0, e1, e2, e3, e4, e5⟩ := idx_facts t
  have ht : t.val < 20 := by have h : t.val < grid2.N := t.isLt; have hN : grid2.N = 20 := N_2; omega
  funext y
  obtain ⟨p, q, rfl⟩ : ∃ (p : Fin 5000) (q : Fin 64), y = ix2 p q := ⟨y 0, y 1, eq_ix2 y⟩
  refine (Cert.Bodies.pay_lin2 (iblk2 V c 0 t) (iblk2 V c 1 t) p q).trans ?_
  have hp : p.val < 5000 := p.isLt
  let r : Fin 100000 := ⟨t.val * 5000 + p.val, by omega⟩
  have hout : ((cfg2.win 2).blk t).view.emb (ix2 p q) = ix2 r q := by
    funext a; apply Fin.ext
    match a with
    | ⟨0, _⟩ => show win2_2.index t (0 : Fin 2) * 5000 + 1 * p.val = t.val * 5000 + p.val; omega
    | ⟨1, _⟩ => show win2_2.index t (1 : Fin 2) * 64 + 1 * q.val = q.val; omega
  have hin0 : ∀ k : Fin 64, ((cfg2.win 0).blk t).view.emb (ix2 p k) = ix2 r k := by
    intro k; funext a; apply Fin.ext
    match a with
    | ⟨0, _⟩ => show win2_0.index t (0 : Fin 2) * 5000 + 1 * p.val = t.val * 5000 + p.val; omega
    | ⟨1, _⟩ => show win2_0.index t (1 : Fin 2) * 64 + 1 * k.val = k.val; omega
  have hin1 : ∀ k : Fin 64, ((cfg2.win 1).blk t).view.emb (ix2 k q) = ix2 k q := by
    intro k; funext a; apply Fin.ext
    match a with
    | ⟨0, _⟩ => show win2_1.index t (0 : Fin 2) * 64 + 1 * k.val = k.val; omega
    | ⟨1, _⟩ => show win2_1.index t (1 : Fin 2) * 64 + 1 * q.val = q.val; omega
  show dotAt (fun k : Fin 64 => V c main_v50 (((cfg2.win 0).blk t).view.emb (ix2 p k)))
      (fun k : Fin 64 => V c main_arg4 (((cfg2.win 1).blk t).view.emb (ix2 k q)))
    = G (V c main_v50) (V c main_arg4) (((cfg2.win 2).blk t).view.emb (ix2 p q))
  rw [hout]
  simp only [hin0, hin1]
  rfl

/-- An index of the output array is in point `t`'s block iff each coordinate is in the block's range. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v51).slice (win2_2.rect t)).set ↔ _
  rw [View.set_slice_whole, Rect.mem_set_unit]
  exact Iff.rfl

/-- Every index of the output array is in the block of the point that owns its row, `r / 5000`. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 20 := N_2
  let t : Fin cfg2.N := ⟨(i 0).val / 5000, by show _ < grid2.N; rw [hN]; omega⟩
  obtain ⟨e0, e1, e2, e3, e4, e5⟩ := idx_facts t
  have ht : t.val = (i 0).val / 5000 := rfl
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- After the region the output array holds `G` of the arrays the region found. -/
theorem value (c : Dev nD) : (dat2 V c).arrAt 2 cfg2.N = G (V c main_v50) (V c main_arg4) :=
  (dat2 V c).arrAt_eq_of_cover 2 _ (fun t _ => flushed_eq V c t) cover

end Cert.KernelIdeal.Region2

end
-- ==== Proof.Region3.lean ====
/-
  Region 3 (bias, clamp and normalisation of a layer), as one function of the arrays it finds.

  The region tiles the 100000 node rows into 20 blocks of 5000; at block `t` the body adds the bias row to rows
  `5000 t … 5000 t + 4999` of the mixed rows, clamps at zero, and normalises each row by its own mean and variance
  before the scale and shift. Every step is row by row, so every block is the restriction of ONE whole-array
  function — entry `(r, j)` is feature `j` of the normalised row `r` — and the blocks cover the array: that function
  is what the output array holds after the region.
-/
import proofs.«120807_j13108240187815_1_alg».proof.Proof.Gen.KernelIdeal.Frame
import proofs.«120807_j13108240187815_1_alg».proof.Proof.Bodies
import proofs.«120807_j13108240187815_1_alg».proof.Proof.Spec
import Idealize.ShloMosaic.Lib.Pipeline.Value
import Idealize.ShloMosaic.Lib.ValueIdx

set_option maxRecDepth 16384

noncomputable section

namespace Cert.KernelIdeal.Region3

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer's output rows: entry `(r, j)` is feature `j` of row `r` of `A` after bias `b`, clamp, normalisation, scale `g` and shift `be` (one-row matrices). -/
def G (A : S100000x64.Idx → EReal) (b g be : S1x64.Idx → EReal) : S100000x64.Idx → EReal :=
  fun i => postAt (fun k : Fin 64 => A (ix2 (i 0) k)) (fun k : Fin 64 => b (ix2 (0 : Fin 1) k)) (fun k : Fin 64 => g (ix2 (0 : Fin 1) k))
    (fun k : Fin 64 => be (ix2 (0 : Fin 1) k)) (i 1)

/-- The printed index maps over the 20 grid points: the row blocks of the first operand and of the output move
    together, one block per point in order; every other operand is one whole block. -/
theorem idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = t.val
    ∧ win3_4.index t (1 : Fin 2) = 0 :=
  (by decide +kernel : ∀ t : Fin grid3.N, _)

set_option maxHeartbeats 1000000 in
/-- What point `t` writes back is block `t` of `G` of the arrays as the region finds them. -/
theorem flushed_eq (c : Dev nD) (t : Fin cfg3.N) :
    (dat3 V c).flushed 4 t = ((cfg3.win 4).blk t).view.read (Elt Ideal) (G (V c main_v64) (V c main_v33) (V c main_v30) (V c main_v31)) := by
  show (cfg3.win 4).cut (grid3.coords t) ((dat3 V c).after 4 t) = _
  rw [after3_4]
  unfold out3_4
  rw [View.canon_unit_zero hz]
  simp only [View.ld_unit_zero (S := S5000x64) hz, View.ld_unit_zero (S := S1x64) hz]
  obtain ⟨e0, e1, e2, e3, e4, e5, e6, e7, e8, e9⟩ := idx_facts t
  have ht : t.val < 20 := by have h : t.val < grid3.N := t.isLt; have hN : grid3.N = 20 := N_3; omega
  funext y
  obtain ⟨p, q, rfl⟩ : ∃ (p : Fin 5000) (q : Fin 64), y = ix2 p q := ⟨y 0, y 1, eq_ix2 y⟩
  refine (Cert.Bodies.pay_post3 (iblk3 V c 0 t) (iblk3 V c 1 t) (iblk3 V c 2 t) (iblk3 V c 3 t) p q).trans ?_
  have hp : p.val < 5000 := p.isLt
  let r : Fin 100000 := ⟨t.val * 5000 + p.val, by omega⟩
  have hout : ((cfg3.win 4).blk t).view.emb (ix2 p q) = ix2 r q := by
    funext a; apply Fin.ext
    match a with
    | ⟨0, _⟩ => show win3_4.index t (0 : Fin 2) * 5000 + 1 * p.val = t.val * 5000 + p.val; omega
    | ⟨1, _⟩ => show win3_4.index t (1 : Fin 2) * 64 + 1 * q.val = q.val; omega
  have hin0 : ∀ k : Fin 64, ((cfg3.win 0).blk t).view.emb (ix2 p k) = ix2 r k := by
    intro k; funext a; apply Fin.ext
    match a with
    | ⟨0, _⟩ => show win3_0.index t (0 : Fin 2) * 5000 + 1 * p.val = t.val * 5000 + p.val; omega
    | ⟨1, _⟩ => show win3_0.index t (1 : Fin 2) * 64 + 1 * k.val = k.val; omega
  have hin1 : ∀ k : Fin 64, ((cfg3.win 1).blk t).view.emb (ix2 (0 : Fin 1) k) = ix2 (0 : Fin 1) k := by
    intro k; funext a; apply Fin.ext
    match a with
    | ⟨0, _⟩ => show win3_1.index t (0 : Fin 2) * 1 + 1 * 0 = 0; omega
    | ⟨1, _⟩ => show win3_1.index t (1 : Fin 2) * 64 + 1 * k.val = k.val; omega
  have hin2 : ∀ k : Fin 64, ((cfg3.win 2).blk t).view.emb (ix2 (0 : Fin 1) k) = ix2 (0 : Fin 1) k := by
    intro k; funext a; apply Fin.ext
    match a with
    | ⟨0, _⟩ => show win3_2.index t (0 : Fin 2) * 1 + 1 * 0 = 0; omega
    | ⟨1, _⟩ => show win3_2.index t (1 : Fin 2) * 64 + 1 * k.val = k.val; omega
  have hin3 : ∀ k : Fin 64, ((cfg3.win 3).blk t).view.emb (ix2 (0 : Fin 1) k) = ix2 (0 : Fin 1) k := by
    intro k; funext a; apply Fin.ext
    match a with
    | ⟨0, _⟩ => show win3_3.index t (0 : Fin 2) * 1 + 1 * 0 = 0; omega
    | ⟨1, _⟩ => show win3_3.index t (1 : Fin 2) * 64 + 1 * k.val = k.val; omega
  show postAt (fun k : Fin 64 => V c main_v64 (((cfg3.win 0).blk t).view.emb (ix2 p k)))
      (fun k : Fin 64 => V c main_v33 (((cfg3.win 1).blk t).view.emb (ix2 (0 : Fin 1) k)))
      (fun k : Fin 64 => V c main_v30 (((cfg3.win 2).blk t).view.emb (ix2 (0 : Fin 1) k)))
      (fun k : Fin 64 => V c main_v31 (((cfg3.win 3).blk t).view.emb (ix2 (0 : Fin 1) k))) q
    = G (V c main_v64) (V c main_v33) (V c main_v30) (V c main_v31) (((cfg3.win 4).blk t).view.emb (ix2 p q))
  rw [hout]
  simp only [hin0, hin1, hin2, hin3]
  rfl

/-- An index of the output array is in point `t`'s block iff each coordinate is in the block's range. -/
theorem mem_blk (t : Fin cfg3.N) (i : S100000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v65).slice (win3_4.rect t)).set ↔ _
  rw [View.set_slice_whole, Rect.mem_set_unit]
  exact Iff.rfl

/-- Every index of the output array is in the block of the point that owns its row, `r / 5000`. -/
theorem cover (i : S100000x64.Idx) : ∃ t : Fin cfg3.N, (cfg3.win 4).flush t = true ∧ i ∈ ((cfg3.win 4).blk t).view.set := by
  have hi0 : (i 0).val < 100000 := (i 0).isLt
  have hi1 : (i 1).val < 64 := (i 1).isLt
  have hN : grid3.N = 20 := N_3
  let t : Fin cfg3.N := ⟨(i 0).val / 5000, by show _ < grid3.N; rw [hN]; omega⟩
  obtain ⟨e0, e1, e2, e3, e4, e5, e6, e7, e8, e9⟩ := idx_facts t
  have ht : t.val = (i 0).val / 5000 := rfl
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- After the region the output array holds `G` of the arrays the region found. -/
theorem value (c : Dev nD) : (dat3 V c).arrAt 4 cfg3.N = G (V c main_v64) (V c main_v33) (V c main_v30) (V c main_v31) :=
  (dat3 V c).arrAt_eq_of_cover 4 _ (fun t _ => flushed_eq V c t) cover

end Cert.KernelIdeal.Region3

end
-- ==== Proof.Region4.lean ====
/-
  Region 4 (a projection), as one function of the arrays it finds.

  The region tiles the 100000 node rows into 20 blocks of 5000; at block `t` the body multiplies rows
  `5000 t … 5000 t + 4999` of its left operand by the whole weight matrix and stores the block of products. A row of a
  product depends only on that row of the left factor, so every block is the restriction of ONE whole-array
  function — entry `(r, j)` is row `r` of the left operand against column `j` of the weights — and the blocks cover the
  array: that function is what the output array holds after the region.
-/
import proofs.«120807_j13108240187815_1_alg».proof.Proof.Gen.KernelIdeal.Frame
import proofs.«120807_j13108240187815_1_alg».proof.Proof.Bodies
import proofs.«120807_j13108240187815_1_alg».proof.Proof.Spec
import Idealize.ShloMosaic.Lib.Pipeline.Value
import Idealize.ShloMosaic.Lib.ValueIdx

set_option maxRecDepth 16384

noncomputable section

namespace Cert.KernelIdeal.Region4

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The projected rows: entry `(r, j)` is row `r` of `X` against column `j` of `W`. -/
def G (X : S100000x64.Idx → EReal) (W : S64x64.Idx → EReal) : S100000x64.Idx → EReal :=
  fun i => dotAt (fun k : Fin 64 => X (ix2 (i 0) k)) (fun k : Fin 64 => W (ix2 k (i 1)))

/-- The printed index maps over the 20 grid points: the row blocks of the first operand and of the output move
    together, one block per point in order; every other operand is one whole block. -/
theorem idx_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What point `t` writes back is block `t` of `G` of the arrays as the region finds them. -/
theorem flushed_eq (c : Dev nD) (t : Fin cfg4.N) :
    (dat4 V c).flushed 2 t = ((cfg4.win 2).blk t).view.read (Elt Ideal) (G (V c main_v65) (V c main_arg6)) := by
  show (cfg4.win 2).cut (grid4.coords t) ((dat4 V c).after 2 t) = _
  rw [after4_2]
  unfold out4_2
  rw [View.canon_unit_zero hz]
  simp only [View.ld_unit_zero (S := S5000x64) hz, View.ld_unit_zero (S := S64x64) hz]
  obtain ⟨e0, e1, e2, e3, e4, e5⟩ := idx_facts t
  have ht : t.val < 20 := by have h : t.val < grid4.N := t.isLt; have hN : grid4.N = 20 := N_4; omega
  funext y
  obtain ⟨p, q, rfl⟩ : ∃ (p : Fin 5000) (q : Fin 64), y = ix2 p q := ⟨y 0, y 1, eq_ix2 y⟩
  refine (Cert.Bodies.pay_lin4 (iblk4 V c 0 t) (iblk4 V c 1 t) p q).trans ?_
  have hp : p.val < 5000 := p.isLt
  let r : Fin 100000 := ⟨t.val * 5000 + p.val, by omega⟩
  have hout : ((cfg4.win 2).blk t).view.emb (ix2 p q) = ix2 r q := by
    funext a; apply Fin.ext
    match a with
    | ⟨0, _⟩ => show win4_2.index t (0 : Fin 2) * 5000 + 1 * p.val = t.val * 5000 + p.val; omega
    | ⟨1, _⟩ => show win4_2.index t (1 : Fin 2) * 64 + 1 * q.val = q.val; omega
  have hin0 : ∀ k : Fin 64, ((cfg4.win 0).blk t).view.emb (ix2 p k) = ix2 r k := by
    intro k; funext a; apply Fin.ext
    match a with
    | ⟨0, _⟩ => show win4_0.index t (0 : Fin 2) * 5000 + 1 * p.val = t.val * 5000 + p.val; omega
    | ⟨1, _⟩ => show win4_0.index t (1 : Fin 2) * 64 + 1 * k.val = k.val; omega
  have hin1 : ∀ k : Fin 64, ((cfg4.win 1).blk t).view.emb (ix2 k q) = ix2 k q := by
    intro k; funext a; apply Fin.ext
    match a with
    | ⟨0, _⟩ => show win4_1.index t (0 : Fin 2) * 64 + 1 * k.val = k.val; omega
    | ⟨1, _⟩ => show win4_1.index t (1 : Fin 2) * 64 + 1 * q.val = q.val; omega
  show dotAt (fun k : Fin 64 => V c main_v65 (((cfg4.win 0).blk t).view.emb (ix2 p k)))
      (fun k : Fin 64 => V c main_arg6 (((cfg4.win 1).blk t).view.emb (ix2 k q)))
    = G (V c main_v65) (V c main_arg6) (((cfg4.win 2).blk t).view.emb (ix2 p q))
  rw [hout]
  simp only [hin0, hin1]
  rfl

/-- An index of the output array is in point `t`'s block iff each coordinate is in the block's range. -/
theorem mem_blk (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v66).slice (win4_2.rect t)).set ↔ _
  rw [View.set_slice_whole, Rect.mem_set_unit]
  exact Iff.rfl

/-- Every index of the output array is in the block of the point that owns its row, `r / 5000`. -/
theorem cover (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : grid4.N = 20 := N_4
  let t : Fin cfg4.N := ⟨(i 0).val / 5000, by show _ < grid4.N; rw [hN]; omega⟩
  obtain ⟨e0, e1, e2, e3, e4, e5⟩ := idx_facts t
  have ht : t.val = (i 0).val / 5000 := rfl
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 64 ≤ (i 1).val ∧ (i 1).val < win4_2.index t (1 : Fin 2) * 64 + 64; omega

/-- After the region the output array holds `G` of the arrays the region found. -/
theorem value (c : Dev nD) : (dat4 V c).arrAt 2 cfg4.N = G (V c main_v65) (V c main_arg6) :=
  (dat4 V c).arrAt_eq_of_cover 2 _ (fun t _ => flushed_eq V c t) cover

end Cert.KernelIdeal.Region4

end
-- ==== Proof.Region5.lean ====
/-
  Region 5 (bias, clamp and normalisation of a layer), as one function of the arrays it finds.

  The region tiles the 100000 node rows into 20 blocks of 5000; at block `t` the body adds the bias row to rows
  `5000 t … 5000 t + 4999` of the mixed rows, clamps at zero, and normalises each row by its own mean and variance
  before the scale and shift. Every step is row by row, so every block is the restriction of ONE whole-array
  function — entry `(r, j)` is feature `j` of the normalised row `r` — and the blocks cover the array: that function
  is what the output array holds after the region.
-/
import proofs.«120807_j13108240187815_1_alg».proof.Proof.Gen.KernelIdeal.Frame
import proofs.«120807_j13108240187815_1_alg».proof.Proof.Bodies
import proofs.«120807_j13108240187815_1_alg».proof.Proof.Spec
import Idealize.ShloMosaic.Lib.Pipeline.Value
import Idealize.ShloMosaic.Lib.ValueIdx

set_option maxRecDepth 16384

noncomputable section

namespace Cert.KernelIdeal.Region5

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer's output rows: entry `(r, j)` is feature `j` of row `r` of `A` after bias `b`, clamp, normalisation, scale `g` and shift `be` (one-row matrices). -/
def G (A : S100000x64.Idx → EReal) (b g be : S1x64.Idx → EReal) : S100000x64.Idx → EReal :=
  fun i => postAt (fun k : Fin 64 => A (ix2 (i 0) k)) (fun k : Fin 64 => b (ix2 (0 : Fin 1) k)) (fun k : Fin 64 => g (ix2 (0 : Fin 1) k))
    (fun k : Fin 64 => be (ix2 (0 : Fin 1) k)) (i 1)

/-- The printed index maps over the 20 grid points: the row blocks of the first operand and of the output move
    together, one block per point in order; every other operand is one whole block. -/
theorem idx_facts : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = t.val
    ∧ win5_4.index t (1 : Fin 2) = 0 :=
  (by decide +kernel : ∀ t : Fin grid5.N, _)

set_option maxHeartbeats 1000000 in
/-- What point `t` writes back is block `t` of `G` of the arrays as the region finds them. -/
theorem flushed_eq (c : Dev nD) (t : Fin cfg5.N) :
    (dat5 V c).flushed 4 t = ((cfg5.win 4).blk t).view.read (Elt Ideal) (G (V c main_v79) (V c main_v34) (V c main_v30) (V c main_v31)) := by
  show (cfg5.win 4).cut (grid5.coords t) ((dat5 V c).after 4 t) = _
  rw [after5_4]
  unfold out5_4
  rw [View.canon_unit_zero hz]
  simp only [View.ld_unit_zero (S := S5000x64) hz, View.ld_unit_zero (S := S1x64) hz]
  obtain ⟨e0, e1, e2, e3, e4, e5, e6, e7, e8, e9⟩ := idx_facts t
  have ht : t.val < 20 := by have h : t.val < grid5.N := t.isLt; have hN : grid5.N = 20 := N_5; omega
  funext y
  obtain ⟨p, q, rfl⟩ : ∃ (p : Fin 5000) (q : Fin 64), y = ix2 p q := ⟨y 0, y 1, eq_ix2 y⟩
  refine (Cert.Bodies.pay_post5 (iblk5 V c 0 t) (iblk5 V c 1 t) (iblk5 V c 2 t) (iblk5 V c 3 t) p q).trans ?_
  have hp : p.val < 5000 := p.isLt
  let r : Fin 100000 := ⟨t.val * 5000 + p.val, by omega⟩
  have hout : ((cfg5.win 4).blk t).view.emb (ix2 p q) = ix2 r q := by
    funext a; apply Fin.ext
    match a with
    | ⟨0, _⟩ => show win5_4.index t (0 : Fin 2) * 5000 + 1 * p.val = t.val * 5000 + p.val; omega
    | ⟨1, _⟩ => show win5_4.index t (1 : Fin 2) * 64 + 1 * q.val = q.val; omega
  have hin0 : ∀ k : Fin 64, ((cfg5.win 0).blk t).view.emb (ix2 p k) = ix2 r k := by
    intro k; funext a; apply Fin.ext
    match a with
    | ⟨0, _⟩ => show win5_0.index t (0 : Fin 2) * 5000 + 1 * p.val = t.val * 5000 + p.val; omega
    | ⟨1, _⟩ => show win5_0.index t (1 : Fin 2) * 64 + 1 * k.val = k.val; omega
  have hin1 : ∀ k : Fin 64, ((cfg5.win 1).blk t).view.emb (ix2 (0 : Fin 1) k) = ix2 (0 : Fin 1) k := by
    intro k; funext a; apply Fin.ext
    match a with
    | ⟨0, _⟩ => show win5_1.index t (0 : Fin 2) * 1 + 1 * 0 = 0; omega
    | ⟨1, _⟩ => show win5_1.index t (1 : Fin 2) * 64 + 1 * k.val = k.val; omega
  have hin2 : ∀ k : Fin 64, ((cfg5.win 2).blk t).view.emb (ix2 (0 : Fin 1) k) = ix2 (0 : Fin 1) k := by
    intro k; funext a; apply Fin.ext
    match a with
    | ⟨0, _⟩ => show win5_2.index t (0 : Fin 2) * 1 + 1 * 0 = 0; omega
    | ⟨1, _⟩ => show win5_2.index t (1 : Fin 2) * 64 + 1 * k.val = k.val; omega
  have hin3 : ∀ k : Fin 64, ((cfg5.win 3).blk t).view.emb (ix2 (0 : Fin 1) k) = ix2 (0 : Fin 1) k := by
    intro k; funext a; apply Fin.ext
    match a with
    | ⟨0, _⟩ => show win5_3.index t (0 : Fin 2) * 1 + 1 * 0 = 0; omega
    | ⟨1, _⟩ => show win5_3.index t (1 : Fin 2) * 64 + 1 * k.val = k.val; omega
  show postAt (fun k : Fin 64 => V c main_v79 (((cfg5.win 0).blk t).view.emb (ix2 p k)))
      (fun k : Fin 64 => V c main_v34 (((cfg5.win 1).blk t).view.emb (ix2 (0 : Fin 1) k)))
      (fun k : Fin 64 => V c main_v30 (((cfg5.win 2).blk t).view.emb (ix2 (0 : Fin 1) k)))
      (fun k : Fin 64 => V c main_v31 (((cfg5.win 3).blk t).view.emb (ix2 (0 : Fin 1) k))) q
    = G (V c main_v79) (V c main_v34) (V c main_v30) (V c main_v31) (((cfg5.win 4).blk t).view.emb (ix2 p q))
  rw [hout]
  simp only [hin0, hin1, hin2, hin3]
  rfl

/-- An index of the output array is in point `t`'s block iff each coordinate is in the block's range. -/
theorem mem_blk (t : Fin cfg5.N) (i : S100000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v80).slice (win5_4.rect t)).set ↔ _
  rw [View.set_slice_whole, Rect.mem_set_unit]
  exact Iff.rfl

/-- Every index of the output array is in the block of the point that owns its row, `r / 5000`. -/
theorem cover (i : S100000x64.Idx) : ∃ t : Fin cfg5.N, (cfg5.win 4).flush t = true ∧ i ∈ ((cfg5.win 4).blk t).view.set := by
  have hi0 : (i 0).val < 100000 := (i 0).isLt
  have hi1 : (i 1).val < 64 := (i 1).isLt
  have hN : grid5.N = 20 := N_5
  let t : Fin cfg5.N := ⟨(i 0).val / 5000, by show _ < grid5.N; rw [hN]; omega⟩
  obtain ⟨e0, e1, e2, e3, e4, e5, e6, e7, e8, e9⟩ := idx_facts t
  have ht : t.val = (i 0).val / 5000 := rfl
  refine ⟨t, flush5_4 t, ?_⟩
  rw [mem_blk]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 64 ≤ (i 1).val ∧ (i 1).val < win5_4.index t (1 : Fin 2) * 64 + 64; omega

/-- After the region the output array holds `G` of the arrays the region found. -/
theorem value (c : Dev nD) : (dat5 V c).arrAt 4 cfg5.N = G (V c main_v79) (V c main_v34) (V c main_v30) (V c main_v31) :=
  (dat5 V c).arrAt_eq_of_cover 4 _ (fun t _ => flushed_eq V c t) cover

end Cert.KernelIdeal.Region5

end
-- ==== Proof.Region6.lean ====
/-
  Region 6 (the classifier), as one function of the arrays it finds.

  The region tiles the 100000 node rows into 20 blocks of 5000; at block `t` the body multiplies rows
  `5000 t … 5000 t + 4999` of the last layer's output by the whole 64 × 4 weight matrix and adds the bias row. Row by
  row again: every block is the restriction of ONE whole-array function — entry `(r, j)` is row `r` against column `j`
  of the weights, plus bias `j` — and the blocks cover the array.
-/
import proofs.«120807_j13108240187815_1_alg».proof.Proof.Gen.KernelIdeal.Frame
import proofs.«120807_j13108240187815_1_alg».proof.Proof.Bodies
import proofs.«120807_j13108240187815_1_alg».proof.Proof.Spec
import Idealize.ShloMosaic.Lib.Pipeline.Value
import Idealize.ShloMosaic.Lib.ValueIdx

set_option maxRecDepth 16384

noncomputable section

namespace Cert.KernelIdeal.Region6

open Cert.KernelIdeal Cert.KernelIdeal.Gen Idealize.ShloMosaic Idealize.ShloMosaic.TcCoe Idealize.ShloMosaic.ValueIdx
open Idealize.SL.Sem Cert.Spec
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The class scores: entry `(r, j)` is row `r` of `X` against column `j` of `W`, plus the bias row's entry `j`. -/
def G (X : S100000x64.Idx → EReal) (W : S64x4.Idx → EReal) (b : S1x4.Idx → EReal) : S100000x4.Idx → EReal :=
  fun i => dotAt (fun k : Fin 64 => X (ix2 (i 0) k)) (fun k : Fin 64 => W (ix2 k (i 1))) + b (ix2 (0 : Fin 1) (i 1))

/-- The printed index maps over the 20 grid points: the row blocks of the first operand and of the output move
    together, one block per point in order; every other operand is one whole block. -/
theorem idx_facts : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0 :=
  (by decide +kernel : ∀ t : Fin grid6.N, _)

/-- What point `t` writes back is block `t` of `G` of the arrays as the region finds them. -/
theorem flushed_eq (c : Dev nD) (t : Fin cfg6.N) :
    (dat6 V c).flushed 3 t = ((cfg6.win 3).blk t).view.read (Elt Ideal) (G (V c main_v80) (V c main_arg10) (V c main_v35)) := by
  show (cfg6.win 3).cut (grid6.coords t) ((dat6 V c).after 3 t) = _
  rw [after6_3]
  unfold out6_3
  rw [View.canon_unit_zero hz]
  simp only [View.ld_unit_zero (S := S5000x64) hz, View.ld_unit_zero (S := S64x4) hz, View.ld_unit_zero (S := S1x4) hz]
  obtain ⟨e0, e1, e2, e3, e4, e5, e6, e7⟩ := idx_facts t
  have ht : t.val < 20 := by have h : t.val < grid6.N := t.isLt; have hN : grid6.N = 20 := N_6; omega
  funext y
  obtain ⟨p, q, rfl⟩ : ∃ (p : Fin 5000) (q : Fin 4), y = ix2 p q := ⟨y 0, y 1, eq_ix2 y⟩
  refine (Cert.Bodies.pay_cls (iblk6 V c 0 t) (iblk6 V c 1 t) (iblk6 V c 2 t) p q).trans ?_
  have hp : p.val < 5000 := p.isLt
  let r : Fin 100000 := ⟨t.val * 5000 + p.val, by omega⟩
  have hout : ((cfg6.win 3).blk t).view.emb (ix2 p q) = ix2 r q := by
    funext a; apply Fin.ext
    match a with
    | ⟨0, _⟩ => show win6_3.index t (0 : Fin 2) * 5000 + 1 * p.val = t.val * 5000 + p.val; omega
    | ⟨1, _⟩ => show win6_3.index t (1 : Fin 2) * 4 + 1 * q.val = q.val; omega
  have hin0 : ∀ k : Fin 64, ((cfg6.win 0).blk t).view.emb (ix2 p k) = ix2 r k := by
    intro k; funext a; apply Fin.ext
    match a with
    | ⟨0, _⟩ => show win6_0.index t (0 : Fin 2) * 5000 + 1 * p.val = t.val * 5000 + p.val; omega
    | ⟨1, _⟩ => show win6_0.index t (1 : Fin 2) * 64 + 1 * k.val = k.val; omega
  have hin1 : ∀ k : Fin 64, ((cfg6.win 1).blk t).view.emb (ix2 k q) = ix2 k q := by
    intro k; funext a; apply Fin.ext
    match a with
    | ⟨0, _⟩ => show win6_1.index t (0 : Fin 2) * 64 + 1 * k.val = k.val; omega
    | ⟨1, _⟩ => show win6_1.index t (1 : Fin 2) * 4 + 1 * q.val = q.val; omega
  have hin2 : ((cfg6.win 2).blk t).view.emb (ix2 (0 : Fin 1) q) = ix2 (0 : Fin 1) q := by
    funext a; apply Fin.ext
    match a with
    | ⟨0, _⟩ => show win6_2.index t (0 : Fin 2) * 1 + 1 * 0 = 0; omega
    | ⟨1, _⟩ => show win6_2.index t (1 : Fin 2) * 4 + 1 * q.val = q.val; omega
  show dotAt (fun k : Fin 64 => V c main_v80 (((cfg6.win 0).blk t).view.emb (ix2 p k)))
      (fun k : Fin 64 => V c main_arg10 (((cfg6.win 1).blk t).view.emb (ix2 k q)))
      + V c main_v35 (((cfg6.win 2).blk t).view.emb (ix2 (0 : Fin 1) q))
    = G (V c main_v80) (V c main_arg10) (V c main_v35) (((cfg6.win 3).blk t).view.emb (ix2 p q))
  rw [hout]
  simp only [hin0, hin1, hin2]
  rfl

/-- An index of the output array is in point `t`'s block iff each coordinate is in the block's range. -/
theorem mem_blk (t : Fin cfg6.N) (i : S100000x4.Idx) :
    i ∈ ((cfg6.win 3).blk t).view.set ↔ ∀ a : Fin 2, win6_3.index t a * S5000x4.size a ≤ (i a).val ∧ (i a).val < win6_3.index t a * S5000x4.size a + S5000x4.size a := by
  show i ∈ ((View.whole main_v81).slice (win6_3.rect t)).set ↔ _
  rw [View.set_slice_whole, Rect.mem_set_unit]
  exact Iff.rfl

/-- Every index of the output array is in the block of the point that owns its row, `r / 5000`. -/
theorem cover (i : S100000x4.Idx) : ∃ t : Fin cfg6.N, (cfg6.win 3).flush t = true ∧ i ∈ ((cfg6.win 3).blk t).view.set := by
  have hi0 : (i 0).val < 100000 := (i 0).isLt
  have hi1 : (i 1).val < 4 := (i 1).isLt
  have hN : grid6.N = 20 := N_6
  let t : Fin cfg6.N := ⟨(i 0).val / 5000, by show _ < grid6.N; rw [hN]; omega⟩
  obtain ⟨e0, e1, e2, e3, e4, e5, e6, e7⟩ := idx_facts t
  have ht : t.val = (i 0).val / 5000 := rfl
  refine ⟨t, flush6_3 t, ?_⟩
  rw [mem_blk]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 4 ≤ (i 1).val ∧ (i 1).val < win6_3.index t (1 : Fin 2) * 4 + 4; omega

/-- After the region the output array holds `G` of the arrays the region found. -/
theorem value (c : Dev nD) : (dat6 V c).arrAt 3 cfg6.N = G (V c main_v80) (V c main_arg10) (V c main_v35) :=
  (dat6 V c).arrAt_eq_of_cover 3 _ (fun t _ => flushed_eq V c t) cover

end Cert.KernelIdeal.Region6

end
-- ==== Proof.Carry.lean ====
/-
  Buffers that outlive the segment that wrote them.

  The program's buffer contents at each segment boundary are a fold from the launch memory. A buffer that a segment
  does not write is unchanged across it: a host stretch leaves every buffer none of its operations writes, and a
  region leaves every buffer that is not one of its output arrays (an input array is read through its window and
  left as found). This module walks the buffers the later segments read — the edge index vectors and weights, the
  bias / scale / shift rows, the weight matrices — back to the boundary where they were produced (or to the launch
  memory, for an argument array), one boundary at a time.
-/
import proofs.«120807_j13108240187815_1_alg».proof.Proof.Gen.KernelIdeal.Frame

set_option maxRecDepth 16384

noncomputable section

namespace Cert.KernelIdeal.Carry

open Cert.KernelIdeal Cert.KernelIdeal.Gen Idealize.ShloMosaic Idealize.ShloMosaic.TcCoe Idealize.SL.Sem
open Idealize.ShloMosaic.Pipeline (Dat Cfg Window)

/-- A buffer no operation of a literal host stretch writes keeps its contents across the stretch. -/
macro "host_keep " ops:ident b:ident : tactic => `(tactic|
  exact StableHlo.after_of_forall_not_mem (b := Proc.devRef .tc $b) _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

variable {F : FTy → Type} [FloatOps F]
variable (m : (ℓ : Loc nD τ sig) → Buf (Elt F) ℓ) (ρ : Dev nD → PrngReg) (c : Dev nD)

theorem at4_v3 : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem at7_v3 : W7 m ρ c (Proc.devRef .tc main_v3) = W3 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_keep hostOps1 main_v3
    _ = W3 m ρ c (Proc.devRef .tc main_v3) := W4_of_ne m ρ c main_v3 (by decide)

theorem at10_v3 : W10 m ρ c (Proc.devRef .tc main_v3) = W3 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := W9_of_ne m ρ c main_v3 (by decide)
    _ = W7 m ρ c (Proc.devRef .tc main_v3) := by host_keep hostOps3 main_v3
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by host_keep hostOps1 main_v3
    _ = W3 m ρ c (Proc.devRef .tc main_v3) := W4_of_ne m ρ c main_v3 (by decide)

theorem at4_v6 : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem at7_v6 : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by host_keep hostOps1 main_v6
    _ = W3 m ρ c (Proc.devRef .tc main_v6) := W4_of_ne m ρ c main_v6 (by decide)

theorem at10_v6 : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := by host_keep hostOps3 main_v6
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := by host_keep hostOps1 main_v6
    _ = W3 m ρ c (Proc.devRef .tc main_v6) := W4_of_ne m ρ c main_v6 (by decide)

theorem at4_v29 : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

theorem at7_v29 : W7 m ρ c (Proc.devRef .tc main_v29) = W3 m ρ c (Proc.devRef .tc main_v29) :=
  calc W7 m ρ c (Proc.devRef .tc main_v29)
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by host_keep hostOps1 main_v29
    _ = W3 m ρ c (Proc.devRef .tc main_v29) := W4_of_ne m ρ c main_v29 (by decide)

theorem at10_v29 : W10 m ρ c (Proc.devRef .tc main_v29) = W3 m ρ c (Proc.devRef .tc main_v29) :=
  calc W10 m ρ c (Proc.devRef .tc main_v29)
    _ = W9 m ρ c (Proc.devRef .tc main_v29) := W10_of_ne m ρ c main_v29 (by decide)
    _ = W8 m ρ c (Proc.devRef .tc main_v29) := W9_of_ne m ρ c main_v29 (by decide)
    _ = W7 m ρ c (Proc.devRef .tc main_v29) := by host_keep hostOps3 main_v29
    _ = W6 m ρ c (Proc.devRef .tc main_v29) := W7_of_ne m ρ c main_v29 (by decide)
    _ = W5 m ρ c (Proc.devRef .tc main_v29) := W6_of_ne m ρ c main_v29 (by decide)
    _ = W4 m ρ c (Proc.devRef .tc main_v29) := by host_keep hostOps1 main_v29
    _ = W3 m ρ c (Proc.devRef .tc main_v29) := W4_of_ne m ρ c main_v29 (by decide)

theorem at5_v30 : W5 m ρ c (Proc.devRef .tc main_v30) = W3 m ρ c (Proc.devRef .tc main_v30) :=
  calc W5 m ρ c (Proc.devRef .tc main_v30)
    _ = W4 m ρ c (Proc.devRef .tc main_v30) := by host_keep hostOps1 main_v30
    _ = W3 m ρ c (Proc.devRef .tc main_v30) := W4_of_ne m ρ c main_v30 (by decide)

theorem at8_v30 : W8 m ρ c (Proc.devRef .tc main_v30) = W3 m ρ c (Proc.devRef .tc main_v30) :=
  calc W8 m ρ c (Proc.devRef .tc main_v30)
    _ = W7 m ρ c (Proc.devRef .tc main_v30) := by host_keep hostOps3 main_v30
    _ = W6 m ρ c (Proc.devRef .tc main_v30) := W7_of_ne m ρ c main_v30 (by decide)
    _ = W5 m ρ c (Proc.devRef .tc main_v30) := (W6_arr m ρ c 2).trans (((dat1 (V5 m ρ) c).arrAt_in 2 rfl _).trans (A_eq1 (V5 m ρ) c 2))
    _ = W4 m ρ c (Proc.devRef .tc main_v30) := by host_keep hostOps1 main_v30
    _ = W3 m ρ c (Proc.devRef .tc main_v30) := W4_of_ne m ρ c main_v30 (by decide)

theorem at11_v30 : W11 m ρ c (Proc.devRef .tc main_v30) = W3 m ρ c (Proc.devRef .tc main_v30) :=
  calc W11 m ρ c (Proc.devRef .tc main_v30)
    _ = W10 m ρ c (Proc.devRef .tc main_v30) := by host_keep hostOps5 main_v30
    _ = W9 m ρ c (Proc.devRef .tc main_v30) := W10_of_ne m ρ c main_v30 (by decide)
    _ = W8 m ρ c (Proc.devRef .tc main_v30) := (W9_arr m ρ c 2).trans (((dat3 (V8 m ρ) c).arrAt_in 2 rfl _).trans (A_eq3 (V8 m ρ) c 2))
    _ = W7 m ρ c (Proc.devRef .tc main_v30) := by host_keep hostOps3 main_v30
    _ = W6 m ρ c (Proc.devRef .tc main_v30) := W7_of_ne m ρ c main_v30 (by decide)
    _ = W5 m ρ c (Proc.devRef .tc main_v30) := (W6_arr m ρ c 2).trans (((dat1 (V5 m ρ) c).arrAt_in 2 rfl _).trans (A_eq1 (V5 m ρ) c 2))
    _ = W4 m ρ c (Proc.devRef .tc main_v30) := by host_keep hostOps1 main_v30
    _ = W3 m ρ c (Proc.devRef .tc main_v30) := W4_of_ne m ρ c main_v30 (by decide)

theorem at5_v31 : W5 m ρ c (Proc.devRef .tc main_v31) = W3 m ρ c (Proc.devRef .tc main_v31) :=
  calc W5 m ρ c (Proc.devRef .tc main_v31)
    _ = W4 m ρ c (Proc.devRef .tc main_v31) := by host_keep hostOps1 main_v31
    _ = W3 m ρ c (Proc.devRef .tc main_v31) := W4_of_ne m ρ c main_v31 (by decide)

theorem at8_v31 : W8 m ρ c (Proc.devRef .tc main_v31) = W3 m ρ c (Proc.devRef .tc main_v31) :=
  calc W8 m ρ c (Proc.devRef .tc main_v31)
    _ = W7 m ρ c (Proc.devRef .tc main_v31) := by host_keep hostOps3 main_v31
    _ = W6 m ρ c (Proc.devRef .tc main_v31) := W7_of_ne m ρ c main_v31 (by decide)
    _ = W5 m ρ c (Proc.devRef .tc main_v31) := (W6_arr m ρ c 3).trans (((dat1 (V5 m ρ) c).arrAt_in 3 rfl _).trans (A_eq1 (V5 m ρ) c 3))
    _ = W4 m ρ c (Proc.devRef .tc main_v31) := by host_keep hostOps1 main_v31
    _ = W3 m ρ c (Proc.devRef .tc main_v31) := W4_of_ne m ρ c main_v31 (by decide)

theorem at11_v31 : W11 m ρ c (Proc.devRef .tc main_v31) = W3 m ρ c (Proc.devRef .tc main_v31) :=
  calc W11 m ρ c (Proc.devRef .tc main_v31)
    _ = W10 m ρ c (Proc.devRef .tc main_v31) := by host_keep hostOps5 main_v31
    _ = W9 m ρ c (Proc.devRef .tc main_v31) := W10_of_ne m ρ c main_v31 (by decide)
    _ = W8 m ρ c (Proc.devRef .tc main_v31) := (W9_arr m ρ c 3).trans (((dat3 (V8 m ρ) c).arrAt_in 3 rfl _).trans (A_eq3 (V8 m ρ) c 3))
    _ = W7 m ρ c (Proc.devRef .tc main_v31) := by host_keep hostOps3 main_v31
    _ = W6 m ρ c (Proc.devRef .tc main_v31) := W7_of_ne m ρ c main_v31 (by decide)
    _ = W5 m ρ c (Proc.devRef .tc main_v31) := (W6_arr m ρ c 3).trans (((dat1 (V5 m ρ) c).arrAt_in 3 rfl _).trans (A_eq1 (V5 m ρ) c 3))
    _ = W4 m ρ c (Proc.devRef .tc main_v31) := by host_keep hostOps1 main_v31
    _ = W3 m ρ c (Proc.devRef .tc main_v31) := W4_of_ne m ρ c main_v31 (by decide)

theorem at5_v32 : W5 m ρ c (Proc.devRef .tc main_v32) = W3 m ρ c (Proc.devRef .tc main_v32) :=
  calc W5 m ρ c (Proc.devRef .tc main_v32)
    _ = W4 m ρ c (Proc.devRef .tc main_v32) := by host_keep hostOps1 main_v32
    _ = W3 m ρ c (Proc.devRef .tc main_v32) := W4_of_ne m ρ c main_v32 (by decide)

theorem at8_v33 : W8 m ρ c (Proc.devRef .tc main_v33) = W3 m ρ c (Proc.devRef .tc main_v33) :=
  calc W8 m ρ c (Proc.devRef .tc main_v33)
    _ = W7 m ρ c (Proc.devRef .tc main_v33) := by host_keep hostOps3 main_v33
    _ = W6 m ρ c (Proc.devRef .tc main_v33) := W7_of_ne m ρ c main_v33 (by decide)
    _ = W5 m ρ c (Proc.devRef .tc main_v33) := W6_of_ne m ρ c main_v33 (by decide)
    _ = W4 m ρ c (Proc.devRef .tc main_v33) := by host_keep hostOps1 main_v33
    _ = W3 m ρ c (Proc.devRef .tc main_v33) := W4_of_ne m ρ c main_v33 (by decide)

theorem at11_v34 : W11 m ρ c (Proc.devRef .tc main_v34) = W3 m ρ c (Proc.devRef .tc main_v34) :=
  calc W11 m ρ c (Proc.devRef .tc main_v34)
    _ = W10 m ρ c (Proc.devRef .tc main_v34) := by host_keep hostOps5 main_v34
    _ = W9 m ρ c (Proc.devRef .tc main_v34) := W10_of_ne m ρ c main_v34 (by decide)
    _ = W8 m ρ c (Proc.devRef .tc main_v34) := W9_of_ne m ρ c main_v34 (by decide)
    _ = W7 m ρ c (Proc.devRef .tc main_v34) := by host_keep hostOps3 main_v34
    _ = W6 m ρ c (Proc.devRef .tc main_v34) := W7_of_ne m ρ c main_v34 (by decide)
    _ = W5 m ρ c (Proc.devRef .tc main_v34) := W6_of_ne m ρ c main_v34 (by decide)
    _ = W4 m ρ c (Proc.devRef .tc main_v34) := by host_keep hostOps1 main_v34
    _ = W3 m ρ c (Proc.devRef .tc main_v34) := W4_of_ne m ρ c main_v34 (by decide)

theorem at12_v35 : W12 m ρ c (Proc.devRef .tc main_v35) = W3 m ρ c (Proc.devRef .tc main_v35) :=
  calc W12 m ρ c (Proc.devRef .tc main_v35)
    _ = W11 m ρ c (Proc.devRef .tc main_v35) := W12_of_ne m ρ c main_v35 (by decide)
    _ = W10 m ρ c (Proc.devRef .tc main_v35) := by host_keep hostOps5 main_v35
    _ = W9 m ρ c (Proc.devRef .tc main_v35) := W10_of_ne m ρ c main_v35 (by decide)
    _ = W8 m ρ c (Proc.devRef .tc main_v35) := W9_of_ne m ρ c main_v35 (by decide)
    _ = W7 m ρ c (Proc.devRef .tc main_v35) := by host_keep hostOps3 main_v35
    _ = W6 m ρ c (Proc.devRef .tc main_v35) := W7_of_ne m ρ c main_v35 (by decide)
    _ = W5 m ρ c (Proc.devRef .tc main_v35) := W6_of_ne m ρ c main_v35 (by decide)
    _ = W4 m ρ c (Proc.devRef .tc main_v35) := by host_keep hostOps1 main_v35
    _ = W3 m ρ c (Proc.devRef .tc main_v35) := W4_of_ne m ρ c main_v35 (by decide)

theorem at3_arg0 : W3 m ρ c (Proc.devRef .tc main_arg0) = m ((c : Thread nD τ).loc main_arg0) :=
  calc W3 m ρ c (Proc.devRef .tc main_arg0)
    _ = W2 m ρ c (Proc.devRef .tc main_arg0) := by host_keep hostOps0_2 main_arg0
    _ = W1 m ρ c (Proc.devRef .tc main_arg0) := by host_keep hostOps0_1 main_arg0
    _ = W0 m ρ c (Proc.devRef .tc main_arg0) := by host_keep hostOps0 main_arg0
    _ = m ((c : Thread nD τ).loc main_arg0) := rfl

theorem at3_arg2 : W3 m ρ c (Proc.devRef .tc main_arg2) = m ((c : Thread nD τ).loc main_arg2) :=
  calc W3 m ρ c (Proc.devRef .tc main_arg2)
    _ = W2 m ρ c (Proc.devRef .tc main_arg2) := by host_keep hostOps0_2 main_arg2
    _ = W1 m ρ c (Proc.devRef .tc main_arg2) := by host_keep hostOps0_1 main_arg2
    _ = W0 m ρ c (Proc.devRef .tc main_arg2) := by host_keep hostOps0 main_arg2
    _ = m ((c : Thread nD τ).loc main_arg2) := rfl

theorem at6_arg4 : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := by host_keep hostOps1 main_arg4
    _ = W3 m ρ c (Proc.devRef .tc main_arg4) := W4_of_ne m ρ c main_arg4 (by decide)
    _ = W2 m ρ c (Proc.devRef .tc main_arg4) := by host_keep hostOps0_2 main_arg4
    _ = W1 m ρ c (Proc.devRef .tc main_arg4) := by host_keep hostOps0_1 main_arg4
    _ = W0 m ρ c (Proc.devRef .tc main_arg4) := by host_keep hostOps0 main_arg4
    _ = m ((c : Thread nD τ).loc main_arg4) := rfl

theorem at9_arg6 : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := by host_keep hostOps3 main_arg6
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := by host_keep hostOps1 main_arg6
    _ = W3 m ρ c (Proc.devRef .tc main_arg6) := W4_of_ne m ρ c main_arg6 (by decide)
    _ = W2 m ρ c (Proc.devRef .tc main_arg6) := by host_keep hostOps0_2 main_arg6
    _ = W1 m ρ c (Proc.devRef .tc main_arg6) := by host_keep hostOps0_1 main_arg6
    _ = W0 m ρ c (Proc.devRef .tc main_arg6) := by host_keep hostOps0 main_arg6
    _ = m ((c : Thread nD τ).loc main_arg6) := rfl

theorem at12_arg10 : W12 m ρ c (Proc.devRef .tc main_arg10) = m ((c : Thread nD τ).loc main_arg10) :=
  calc W12 m ρ c (Proc.devRef .tc main_arg10)
    _ = W11 m ρ c (Proc.devRef .tc main_arg10) := W12_of_ne m ρ c main_arg10 (by decide)
    _ = W10 m ρ c (Proc.devRef .tc main_arg10) := by host_keep hostOps5 main_arg10
    _ = W9 m ρ c (Proc.devRef .tc main_arg10) := W10_of_ne m ρ c main_arg10 (by decide)
    _ = W8 m ρ c (Proc.devRef .tc main_arg10) := W9_of_ne m ρ c main_arg10 (by decide)
    _ = W7 m ρ c (Proc.devRef .tc main_arg10) := by host_keep hostOps3 main_arg10
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := by host_keep hostOps1 main_arg10
    _ = W3 m ρ c (Proc.devRef .tc main_arg10) := W4_of_ne m ρ c main_arg10 (by decide)
    _ = W2 m ρ c (Proc.devRef .tc main_arg10) := by host_keep hostOps0_2 main_arg10
    _ = W1 m ρ c (Proc.devRef .tc main_arg10) := by host_keep hostOps0_1 main_arg10
    _ = W0 m ρ c (Proc.devRef .tc main_arg10) := by host_keep hostOps0 main_arg10
    _ = m ((c : Thread nD τ).loc main_arg10) := rfl

end Cert.KernelIdeal.Carry

end
-- ==== Proof.Prep.lean ====
/-
  What the kernel program's opening host stretches leave: the edge index vectors and weights, and the row casts.

  Before its first region the program computes, from the edge list alone, the source and destination index vectors
  (the edges followed by one self loop per node), each node's degree (a sum of ones into the destinations), the
  inverse square root of the degree where it is positive, and each edge's weight (the product of its two ends'
  factors) — by the same operations, in the same order, as the reference: read at their buffers they ARE the
  reference's stage functions of the edge list. It also casts the bias, scale and shift vectors to one-row matrices.
-/
import proofs.«120807_j13108240187815_1_alg».proof.Proof.Gen.KernelIdeal.Frame
import proofs.«120807_j13108240187815_1_alg».proof.Proof.RefReadP
import proofs.«120807_j13108240187815_1_alg».proof.Proof.LibStageRead

set_option maxRecDepth 16384

noncomputable section

namespace Cert.KernelIdeal.Prep

open Cert.KernelIdeal Cert.KernelIdeal.Gen Idealize.ShloMosaic Idealize.ShloMosaic.TcCoe Idealize.SL.Sem Idealize.ShloMosaic.StableHlo
open Cert.ReferenceIdeal.ReadP Cert.StageRead

variable {F : FTy → Type} [FloatOps F]
variable (m : (ℓ : Loc nD τ sig) → Buf (Elt F) ℓ) (ρ : Dev nD → PrngReg) (c : Dev nD)

/-- The source index vector: the edges' first row followed by the nodes' own numbers. -/
theorem v3 : W3 m ρ c (Proc.devRef .tc main_v3) = val_main_v3 (F := F) (m ((c : Thread nD τ).loc main_arg1)) := by
  show StableHlo.after hostOps0_2 (StableHlo.after hostOps0_1 (StableHlo.after hostOps0 (W0 m ρ c))) (Proc.devRef .tc main_v3) = _
  stage_results
  simp only [val_main_v3, val_main_v2, val_main_v1, val_main_v0]
  rfl

/-- The destination index vector: the edges' second row followed by the nodes' own numbers. -/
theorem v6 : W3 m ρ c (Proc.devRef .tc main_v6) = val_main_v6 (F := F) (m ((c : Thread nD τ).loc main_arg1)) := by
  show StableHlo.after hostOps0_2 (StableHlo.after hostOps0_1 (StableHlo.after hostOps0 (W0 m ρ c))) (Proc.devRef .tc main_v6) = _
  stage_results
  simp only [val_main_v6, val_main_v5, val_main_v4, val_main_v0]
  rfl

/-- The edge weights. -/
theorem v29 : W3 m ρ c (Proc.devRef .tc main_v29) = val_main_v29 (F := F) (m ((c : Thread nD τ).loc main_arg1)) := by
  show StableHlo.after hostOps0_2 (StableHlo.after hostOps0_1 (StableHlo.after hostOps0 (W0 m ρ c))) (Proc.devRef .tc main_v29) = _
  stage_results
  simp only [val_main_v0, val_main_v1, val_main_v2, val_main_v3, val_main_v4, val_main_v5, val_main_v6, val_main_cst, val_main_v7, val_main_cst_0, val_main_v8, val_main_v9, val_main_v10, val_main_cst_1, val_main_v11, val_main_v12, val_main_v13, val_main_cst_2, val_main_call0_v0, val_main_call0_v1, val_main_v14, val_main_c, val_main_v15, val_main_v16, val_main_c_3, val_main_v17, val_main_v18, val_main_v19, val_main_v20, val_main_v21, val_main_c_4, val_main_v22, val_main_v23, val_main_c_5, val_main_v24, val_main_v25, val_main_v26, val_main_v27, val_main_v28, val_main_v29]
  rfl

/-- The vector `main_arg8` cast to one row. -/
theorem v30 : W3 m ρ c (Proc.devRef .tc main_v30) = shapeCast S1x64 (m ((c : Thread nD τ).loc main_arg8)) shapeCasts_S64_S1x64 := by
  show StableHlo.after hostOps0_2 (StableHlo.after hostOps0_1 (StableHlo.after hostOps0 (W0 m ρ c))) (Proc.devRef .tc main_v30) = _
  stage_results
  rfl

/-- The vector `main_arg9` cast to one row. -/
theorem v31 : W3 m ρ c (Proc.devRef .tc main_v31) = shapeCast S1x64 (m ((c : Thread nD τ).loc main_arg9)) shapeCasts_S64_S1x64 := by
  show StableHlo.after hostOps0_2 (StableHlo.after hostOps0_1 (StableHlo.after hostOps0 (W0 m ρ c))) (Proc.devRef .tc main_v31) = _
  stage_results
  rfl

/-- The vector `main_arg3` cast to one row. -/
theorem v32 : W3 m ρ c (Proc.devRef .tc main_v32) = shapeCast S1x64 (m ((c : Thread nD τ).loc main_arg3)) shapeCasts_S64_S1x64 := by
  show StableHlo.after hostOps0_2 (StableHlo.after hostOps0_1 (StableHlo.after hostOps0 (W0 m ρ c))) (Proc.devRef .tc main_v32) = _
  stage_results
  rfl

/-- The vector `main_arg5` cast to one row. -/
theorem v33 : W3 m ρ c (Proc.devRef .tc main_v33) = shapeCast S1x64 (m ((c : Thread nD τ).loc main_arg5)) shapeCasts_S64_S1x64 := by
  show StableHlo.after hostOps0_2 (StableHlo.after hostOps0_1 (StableHlo.after hostOps0 (W0 m ρ c))) (Proc.devRef .tc main_v33) = _
  stage_results
  rfl

/-- The vector `main_arg7` cast to one row. -/
theorem v34 : W3 m ρ c (Proc.devRef .tc main_v34) = shapeCast S1x64 (m ((c : Thread nD τ).loc main_arg7)) shapeCasts_S64_S1x64 := by
  show StableHlo.after hostOps0_2 (StableHlo.after hostOps0_1 (StableHlo.after hostOps0 (W0 m ρ c))) (Proc.devRef .tc main_v34) = _
  stage_results
  rfl

/-- The vector `main_arg11` cast to one row. -/
theorem v35 : W3 m ρ c (Proc.devRef .tc main_v35) = shapeCast S1x4 (m ((c : Thread nD τ).loc main_arg11)) shapeCasts_S4_S1x4 := by
  show StableHlo.after hostOps0_2 (StableHlo.after hostOps0_1 (StableHlo.after hostOps0 (W0 m ρ c))) (Proc.devRef .tc main_v35) = _
  stage_results
  rfl

end Cert.KernelIdeal.Prep

end
-- ==== Proof.Mix.lean ====
/-
  The edge mix of a graph layer, named once.

  Both programs mix the projected node rows along the edges with the SAME host operations: the source index of
  each edge is wrapped into range (a negative index counts from the end), the source's row is gathered and scaled by
  the edge's weight, and the scaled rows are summed into their destination rows from a zero array. `agg` is that
  chain as one function of the projected rows `H`, the source and destination index vectors `s`, `d` and the edge
  weights `w`; the certificate never opens it: it only shows that both programs feed it equal arguments.
-/
import proofs.«120807_j13108240187815_1_alg».proof.Proof.Gen.ReferenceIdeal

noncomputable section

namespace Cert.Mix

open Cert.ReferenceIdeal Cert.ReferenceIdeal.Gen Idealize.ShloMosaic Idealize.ShloMosaic.TcCoe

variable {F : FTy → Type} [FloatOps F]

/-- The mixed rows: for each node, the sum over the edges that end at it of the source's projected row times the
    edge's weight. -/
def agg (H : (⟨S100000x64, .f32⟩ : BufTy).Contents (Elt F)) (s d : (⟨S3300000, .i32⟩ : BufTy).Contents (Elt F))
    (w : (⟨S3300000, .f32⟩ : BufTy).Contents (Elt F)) : (⟨S100000x64, .f32⟩ : BufTy).Contents (Elt F) :=
  Host.scatterAdd scatter_S100000x64_S3300000x1_S3300000x64_1_0_0_1
    (broadcastInDim S100000x64 ![] bcast_S_S100000x64 (constant S_ .f32 0x00000000#32))
    (broadcastInDim S3300000x1 ![0] bcast_S3300000_S3300000x1_0 d)
    (mulf
      (Host.gather gather_S100000x64_S3300000x1_S3300000x64_1_0_n_n_0_1_164 H
        (broadcastInDim S3300000x1 ![0] bcast_S3300000_S3300000x1_0
          (select (cmpi .slt s (broadcastInDim S3300000 ![] bcast_S_S3300000 (constantI S_ 32 0#32)))
            (addi s (broadcastInDim S3300000 ![] bcast_S_S3300000 (constantI S_ 32 100000#32))) s)))
      (broadcastInDim S3300000x64 ![0, 1] bcast_S3300000x1_S3300000x64_0_1
        (broadcastInDim S3300000x1 ![0] bcast_S3300000_S3300000x1_0 w)))

end Cert.Mix

end
-- ==== Proof.HostMix.lean ====
/-
  The kernel program's three edge mixes, read off its host stretches.

  Between a projection region and the normalisation region that follows it the program runs sixteen host
  operations: the source indices wrapped into range, the projected rows gathered and scaled by the edge weights,
  and the scaled rows summed into their destinations. Read at the stretch's result buffer, the stretch is
  `Mix.agg` of the projected rows, the two index vectors and the weights as the stretch finds them — the same chain
  of operations the reference runs.
-/
import proofs.«120807_j13108240187815_1_alg».proof.Proof.Gen.KernelIdeal.Frame
import proofs.«120807_j13108240187815_1_alg».proof.Proof.Mix

set_option maxRecDepth 16384

noncomputable section

namespace Cert.KernelIdeal.HostMix

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

theorem mix1 : W5 m ρ c (Proc.devRef .tc main_v49)
    = Cert.Mix.agg (W4 m ρ c (Proc.devRef .tc main_v36)) (W4 m ρ c (Proc.devRef .tc main_v3))
        (W4 m ρ c (Proc.devRef .tc main_v6)) (W4 m ρ c (Proc.devRef .tc main_v29)) := by
  show StableHlo.after hostOps1 (W4 m ρ c) (Proc.devRef .tc main_v49) = _
  after_results_simp
  rfl

theorem mix2 : W8 m ρ c (Proc.devRef .tc main_v64)
    = Cert.Mix.agg (W7 m ρ c (Proc.devRef .tc main_v51)) (W7 m ρ c (Proc.devRef .tc main_v3))
        (W7 m ρ c (Proc.devRef .tc main_v6)) (W7 m ρ c (Proc.devRef .tc main_v29)) := by
  show StableHlo.after hostOps3 (W7 m ρ c) (Proc.devRef .tc main_v64) = _
  after_results_simp
  rfl

theorem mix3 : W11 m ρ c (Proc.devRef .tc main_v79)
    = Cert.Mix.agg (W10 m ρ c (Proc.devRef .tc main_v66)) (W10 m ρ c (Proc.devRef .tc main_v3))
        (W10 m ρ c (Proc.devRef .tc main_v6)) (W10 m ρ c (Proc.devRef .tc main_v29)) := by
  show StableHlo.after hostOps5 (W10 m ρ c) (Proc.devRef .tc main_v79) = _
  after_results_simp
  rfl

end Cert.KernelIdeal.HostMix

end
-- ==== Proof.MixRef.lean ====
/-
  The reference's three edge mixes are `Mix.agg` of the layer's projected rows, the edge index vectors and the edge
  weights: each is the reference's own chain of operations, spelt the same way.
-/
import proofs.«120807_j13108240187815_1_alg».proof.Proof.RefReadP
import proofs.«120807_j13108240187815_1_alg».proof.Proof.Mix

noncomputable section

namespace Cert.MixRef

open Cert.ReferenceIdeal Cert.ReferenceIdeal.ReadP Idealize.ShloMosaic Idealize.ShloMosaic.TcCoe Cert.Mix

variable {F : FTy → Type} [FloatOps F]

theorem agg1 (x0 : (⟨S100000x128, .f32⟩ : BufTy).Contents (Elt F)) (x1 : (⟨S2x3200000, .i32⟩ : BufTy).Contents (Elt F))
    (x2 : (⟨S128x64, .f32⟩ : BufTy).Contents (Elt F)) :
    val_main_v43 (F := F) x0 x1 x2
      = agg (val_main_v30 (F := F) x0 x2) (val_main_v3 (F := F) x1) (val_main_v6 (F := F) x1) (val_main_v29 (F := F) x1) := rfl

theorem agg2 (x0 : (⟨S100000x128, .f32⟩ : BufTy).Contents (Elt F)) (x1 : (⟨S2x3200000, .i32⟩ : BufTy).Contents (Elt F)) (x2 : (⟨S128x64, .f32⟩ : BufTy).Contents (Elt F)) (x3 : (⟨S64, .f32⟩ : BufTy).Contents (Elt F)) (x4 : (⟨S64x64, .f32⟩ : BufTy).Contents (Elt F)) (x8 : (⟨S64, .f32⟩ : BufTy).Contents (Elt F)) (x9 : (⟨S64, .f32⟩ : BufTy).Contents (Elt F)) :
    val_main_v85 (F := F) x0 x1 x2 x3 x4 x8 x9
      = agg (val_main_v72 (F := F) x0 x1 x2 x3 x4 x8 x9) (val_main_v3 (F := F) x1) (val_main_v6 (F := F) x1) (val_main_v29 (F := F) x1) := rfl

theorem agg3 (x0 : (⟨S100000x128, .f32⟩ : BufTy).Contents (Elt F)) (x1 : (⟨S2x3200000, .i32⟩ : BufTy).Contents (Elt F)) (x2 : (⟨S128x64, .f32⟩ : BufTy).Contents (Elt F)) (x3 : (⟨S64, .f32⟩ : BufTy).Contents (Elt F)) (x4 : (⟨S64x64, .f32⟩ : BufTy).Contents (Elt F)) (x5 : (⟨S64, .f32⟩ : BufTy).Contents (Elt F)) (x6 : (⟨S64x64, .f32⟩ : BufTy).Contents (Elt F)) (x8 : (⟨S64, .f32⟩ : BufTy).Contents (Elt F)) (x9 : (⟨S64, .f32⟩ : BufTy).Contents (Elt F)) :
    val_main_v127 (F := F) x0 x1 x2 x3 x4 x5 x6 x8 x9
      = agg (val_main_v114 (F := F) x0 x1 x2 x3 x4 x5 x6 x8 x9) (val_main_v3 (F := F) x1) (val_main_v6 (F := F) x1) (val_main_v29 (F := F) x1) := rfl

end Cert.MixRef

end
-- ==== Proof.RefStages.lean ====
/-
  The reference program's stages, read at one entry, at the ideal values.

  Each of the three graph layers of the reference is: a plain product of the node features by a weight matrix, the
  mixing of the projected rows along the edges (left opaque here), then a bias, a clamp at zero and a normalisation of
  each row of 64 features to zero mean and unit variance, scaled and shifted. The classifier is one more plain product
  plus a bias. This module reads each of those stages of the reference at an entry `(r, j)` as the corresponding
  function of the specification: `dotAt` for the products, `postAt` for what follows the mixing.
-/
import proofs.«120807_j13108240187815_1_alg».proof.Proof.RefReadP
import proofs.«120807_j13108240187815_1_alg».proof.Proof.Spec
import proofs.«120807_j13108240187815_1_alg».proof.Proof.LibPlainDot
import proofs.«120807_j13108240187815_1_alg».proof.Proof.LibRowOps

noncomputable section

namespace Cert.RefStages

open Cert.ReferenceIdeal Cert.ReferenceIdeal.ReadP Idealize.ShloMosaic Idealize.ShloMosaic.ValueIdx Cert.Spec

/-! ## The plain products

The left operand of the later products is a whole layer's output: each proof names it by a variable before it computes. -/

/-- The first layer's projection: row `r` of the node features against column `j` of the first weight matrix. -/
theorem lin1 (x0 : (⟨S100000x128, .f32⟩ : BufTy).Contents (Elt Ideal)) (x2 : (⟨S128x64, .f32⟩ : BufTy).Contents (Elt Ideal)) (r : Fin 100000) (j : Fin 64) :
    val_main_v30 (F := Ideal) x0 x2 (ix2 r j)
      = dotAt (fun k : Fin 128 => x0 (ix2 r k)) (fun k : Fin 128 => x2 (ix2 k j)) := by
  rw [val_main_v30_apply]
  have el : ∀ k : Fin 128, lidx_main_v30 (ix2 r j) k = ix2 r k := fun k =>
    funext fun a => Fin.ext (by match a with | ⟨0, _⟩ => rfl | ⟨1, _⟩ => rfl)
  have er : ∀ k : Fin 128, ridx_main_v30 (ix2 r j) k = ix2 k j := fun k =>
    funext fun a => Fin.ext (by match a with | ⟨0, _⟩ => rfl | ⟨1, _⟩ => rfl)
  simp only [el, er]
  rfl

/-- The second layer's projection: row `r` of the first layer's output against column `j` of the second weight matrix. -/
theorem lin2 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x8 : (⟨S64, .f32⟩ : BufTy).Contents (Elt Ideal)) (x9 : (⟨S64, .f32⟩ : BufTy).Contents (Elt Ideal)) (r : Fin 100000) (j : Fin 64) :
    val_main_v72 (F := Ideal) x0 x1 x2 x3 x4 x8 x9 (ix2 r j)
      = dotAt (fun k : Fin 64 => val_main_v71 (F := Ideal) x0 x1 x2 x3 x8 x9 (ix2 r k))
          (fun k : Fin 64 => x4 (ix2 k j)) := by
  rw [val_main_v72_apply]
  generalize val_main_v71 (F := Ideal) x0 x1 x2 x3 x8 x9 = B
  have el : ∀ k : Fin 64, lidx_main_v72 (ix2 r j) k = ix2 r k := fun k =>
    funext fun a => Fin.ext (by match a with | ⟨0, _⟩ => rfl | ⟨1, _⟩ => rfl)
  have er : ∀ k : Fin 64, ridx_main_v72 (ix2 r j) k = ix2 k j := fun k =>
    funext fun a => Fin.ext (by match a with | ⟨0, _⟩ => rfl | ⟨1, _⟩ => rfl)
  simp only [el, er]
  rfl

/-- The third layer's projection: row `r` of the second layer's output against column `j` of the third weight matrix. -/
theorem lin3 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x8 : (⟨S64, .f32⟩ : BufTy).Contents (Elt Ideal)) (x9 : (⟨S64, .f32⟩ : BufTy).Contents (Elt Ideal)) (r : Fin 100000) (j : Fin 64) :
    val_main_v114 (F := Ideal) x0 x1 x2 x3 x4 x5 x6 x8 x9 (ix2 r j)
      = dotAt (fun k : Fin 64 => val_main_v113 (F := Ideal) x0 x1 x2 x3 x4 x5 x8 x9 (ix2 r k))
          (fun k : Fin 64 => x6 (ix2 k j)) := by
  rw [val_main_v114_apply]
  generalize val_main_v113 (F := Ideal) x0 x1 x2 x3 x4 x5 x8 x9 = B
  have el : ∀ k : Fin 64, lidx_main_v114 (ix2 r j) k = ix2 r k := fun k =>
    funext fun a => Fin.ext (by match a with | ⟨0, _⟩ => rfl | ⟨1, _⟩ => rfl)
  have er : ∀ k : Fin 64, ridx_main_v114 (ix2 r j) k = ix2 k j := fun k =>
    funext fun a => Fin.ext (by match a with | ⟨0, _⟩ => rfl | ⟨1, _⟩ => rfl)
  simp only [el, er]
  rfl

/-- The classifier: row `r` of the third layer's output against column `j` of the classifier's matrix, plus the bias. -/
theorem cls (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (x10 : (⟨S64x4, .f32⟩ : BufTy).Contents (Elt Ideal)) (x11 : (⟨S4, .f32⟩ : BufTy).Contents (Elt Ideal)) (r : Fin 100000) (j : Fin 4) :
    val_main_v159 (F := Ideal) x0 x1 x2 x3 x4 x5 x6 x7 x8 x9 x10 x11 (ix2 r j)
      = dotAt (fun k : Fin 64 => val_main_v155 (F := Ideal) x0 x1 x2 x3 x4 x5 x6 x7 x8 x9 (ix2 r k))
          (fun k : Fin 64 => x10 (ix2 k j)) + x11 (ix1 j) := by
  rw [val_main_v159_apply, val_main_v156_apply, val_main_v158_apply, val_main_v157_apply]
  generalize val_main_v155 (F := Ideal) x0 x1 x2 x3 x4 x5 x6 x7 x8 x9 = B
  have el : ∀ k : Fin 64, lidx_main_v156 (ix2 r j) k = ix2 r k := fun k =>
    funext fun a => Fin.ext (by match a with | ⟨0, _⟩ => rfl | ⟨1, _⟩ => rfl)
  have er : ∀ k : Fin 64, ridx_main_v156 (ix2 r j) k = ix2 k j := fun k =>
    funext fun a => Fin.ext (by match a with | ⟨0, _⟩ => rfl | ⟨1, _⟩ => rfl)
  have eb : idx_main_v157 (idx_main_v158 (ix2 r j)) = ix1 j :=
    funext fun a => Fin.ext (by match a with | ⟨0, _⟩ => rfl)
  simp only [el, er, eb]
  rfl

/-! ## Layer 1: bias, clamp, and the normalisation of a row

The mixed rows enter only as a function of the entry: each proof names them by a variable before it computes. -/

/-- Layer 1's clamped row: the mixed row plus the bias, clamped at zero. -/
theorem z1 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (r : Fin 100000) (k : Fin 64) :
    val_main_v47 (F := Ideal) x0 x1 x2 x3 (ix2 r k)
      = zrow (fun k : Fin 64 => val_main_v43 (F := Ideal) x0 x1 x2 (ix2 r k)) (fun k : Fin 64 => x3 (ix1 k)) k := by
  rw [val_main_v47_apply, val_main_v46_apply, val_main_v45_apply, val_main_v44_apply, val_main_call1_v0_apply, val_main_call1_cst_apply]
  generalize val_main_v43 (F := Ideal) x0 x1 x2 = A
  have e : idx_main_v44 (idx_main_v45 (ix2 r k)) = ix1 k :=
    funext fun a => Fin.ext (by match a with | ⟨0, _⟩ => rfl)
  rw [e]
  rfl

/-- Layer 1's row mean: the sum of the clamped row (from the zero initial value) divided by 64. -/
theorem mean1 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (r : Fin 100000) :
    val_main_v51 (F := Ideal) x0 x1 x2 x3 (ix2 r (0 : Fin 1))
      = mean (zrow (fun k : Fin 64 => val_main_v43 (F := Ideal) x0 x1 x2 (ix2 r k)) (fun k : Fin 64 => x3 (ix1 k))) := by
  rw [val_main_v51_apply, val_main_v49_apply, val_main_v48_apply, val_main_v50_apply, val_main_cst_10_apply, val_main_cst_9_apply]
  have e : ∀ k : Fin 64, idx_main_v48 (idx_main_v49 (ix2 r (0 : Fin 1))) k = ix2 r k := fun k =>
    funext fun a => Fin.ext (by match a with | ⟨0, _⟩ => rfl | ⟨1, _⟩ => rfl)
  simp only [e, z1]
  generalize val_main_v43 (F := Ideal) x0 x1 x2 = A
  simp only [Ideal.ofBits_def, Ideal.ofBits_zero_f32, zero_add, Ideal.hostDivf_def]
  rfl

/-- Layer 1's centred row: the clamped row minus its mean. -/
theorem dev1 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (r : Fin 100000) (k : Fin 64) :
    val_main_v53 (F := Ideal) x0 x1 x2 x3 (ix2 r k)
      = zrow (fun k : Fin 64 => val_main_v43 (F := Ideal) x0 x1 x2 (ix2 r k)) (fun k : Fin 64 => x3 (ix1 k)) k - mean (zrow (fun k : Fin 64 => val_main_v43 (F := Ideal) x0 x1 x2 (ix2 r k)) (fun k : Fin 64 => x3 (ix1 k))) := by
  rw [val_main_v53_apply, val_main_v52_apply]
  have e : idx_main_v52 (ix2 r k) = ix2 r (0 : Fin 1) :=
    funext fun a => Fin.ext (by match a with | ⟨0, _⟩ => rfl | ⟨1, _⟩ => rfl)
  rw [e, z1, mean1]
  generalize val_main_v43 (F := Ideal) x0 x1 x2 = A
  rfl

/-- Layer 1's squared centred row. -/
theorem sq1 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (r : Fin 100000) (k : Fin 64) :
    val_main_v54 (F := Ideal) x0 x1 x2 x3 (ix2 r k)
      = (zrow (fun k : Fin 64 => val_main_v43 (F := Ideal) x0 x1 x2 (ix2 r k)) (fun k : Fin 64 => x3 (ix1 k)) k - mean (zrow (fun k : Fin 64 => val_main_v43 (F := Ideal) x0 x1 x2 (ix2 r k)) (fun k : Fin 64 => x3 (ix1 k)))) * (zrow (fun k : Fin 64 => val_main_v43 (F := Ideal) x0 x1 x2 (ix2 r k)) (fun k : Fin 64 => x3 (ix1 k)) k - mean (zrow (fun k : Fin 64 => val_main_v43 (F := Ideal) x0 x1 x2 (ix2 r k)) (fun k : Fin 64 => x3 (ix1 k)))) := by
  rw [val_main_v54_apply, dev1]
  generalize val_main_v43 (F := Ideal) x0 x1 x2 = A
  rfl

/-- Layer 1's row variance: the sum of the squares of the centred row divided by 64. -/
theorem var1 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (r : Fin 100000) :
    val_main_v58 (F := Ideal) x0 x1 x2 x3 (ix2 r (0 : Fin 1))
      = var (zrow (fun k : Fin 64 => val_main_v43 (F := Ideal) x0 x1 x2 (ix2 r k)) (fun k : Fin 64 => x3 (ix1 k))) := by
  rw [val_main_v58_apply, val_main_v56_apply, val_main_v55_apply, val_main_v57_apply, val_main_cst_12_apply, val_main_cst_11_apply]
  have e : ∀ k : Fin 64, idx_main_v55 (idx_main_v56 (ix2 r (0 : Fin 1))) k = ix2 r k := fun k =>
    funext fun a => Fin.ext (by match a with | ⟨0, _⟩ => rfl | ⟨1, _⟩ => rfl)
  simp only [e, sq1]
  generalize val_main_v43 (F := Ideal) x0 x1 x2 = A
  simp only [Ideal.ofBits_def, Ideal.ofBits_zero_f32, zero_add, Ideal.hostDivf_def]
  rfl

/-- Layer 1's output at `(r, j)`: the normalised clamped row, scaled and shifted. -/
theorem layer1 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x8 : (⟨S64, .f32⟩ : BufTy).Contents (Elt Ideal)) (x9 : (⟨S64, .f32⟩ : BufTy).Contents (Elt Ideal)) (r : Fin 100000) (j : Fin 64) :
    val_main_v71 (F := Ideal) x0 x1 x2 x3 x8 x9 (ix2 r j)
      = postAt (fun k : Fin 64 => val_main_v43 (F := Ideal) x0 x1 x2 (ix2 r k)) (fun k : Fin 64 => x3 (ix1 k))
          (fun k : Fin 64 => x8 (ix1 k)) (fun k : Fin 64 => x9 (ix1 k)) j := by
  rw [val_main_v71_apply, val_main_v68_apply, val_main_v65_apply, val_main_v60_apply, val_main_v59_apply, val_main_v64_apply, val_main_v63_apply,
    val_main_v62_apply, val_main_v61_apply, val_main_cst_13_apply, val_main_v67_apply, val_main_v66_apply, val_main_v70_apply, val_main_v69_apply]
  have e59 : idx_main_v59 (ix2 r j) = ix2 r (0 : Fin 1) :=
    funext fun a => Fin.ext (by match a with | ⟨0, _⟩ => rfl | ⟨1, _⟩ => rfl)
  have e64 : idx_main_v64 (ix2 r j) = ix2 r (0 : Fin 1) :=
    funext fun a => Fin.ext (by match a with | ⟨0, _⟩ => rfl | ⟨1, _⟩ => rfl)
  have e66 : idx_main_v66 (idx_main_v67 (ix2 r j)) = ix1 j :=
    funext fun a => Fin.ext (by match a with | ⟨0, _⟩ => rfl)
  have e69 : idx_main_v69 (idx_main_v70 (ix2 r j)) = ix1 j :=
    funext fun a => Fin.ext (by match a with | ⟨0, _⟩ => rfl)
  rw [e59, e64, e66, e69, z1, mean1, var1]
  generalize val_main_v43 (F := Ideal) x0 x1 x2 = A
  rfl

/-! ## Layer 2: bias, clamp, and the normalisation of a row

The mixed rows enter only as a function of the entry: each proof names them by a variable before it computes. -/

/-- Layer 2's clamped row: the mixed row plus the bias, clamped at zero. -/
theorem z2 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x8 : (⟨S64, .f32⟩ : BufTy).Contents (Elt Ideal)) (x9 : (⟨S64, .f32⟩ : BufTy).Contents (Elt Ideal)) (r : Fin 100000) (k : Fin 64) :
    val_main_v89 (F := Ideal) x0 x1 x2 x3 x4 x5 x8 x9 (ix2 r k)
      = zrow (fun k : Fin 64 => val_main_v85 (F := Ideal) x0 x1 x2 x3 x4 x8 x9 (ix2 r k)) (fun k : Fin 64 => x5 (ix1 k)) k := by
  rw [val_main_v89_apply, val_main_v88_apply, val_main_v87_apply, val_main_v86_apply, val_main_call2_v0_apply, val_main_call2_cst_apply]
  generalize val_main_v85 (F := Ideal) x0 x1 x2 x3 x4 x8 x9 = A
  have e : idx_main_v86 (idx_main_v87 (ix2 r k)) = ix1 k :=
    funext fun a => Fin.ext (by match a with | ⟨0, _⟩ => rfl)
  rw [e]
  rfl

/-- Layer 2's row mean: the sum of the clamped row (from the zero initial value) divided by 64. -/
theorem mean2 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x8 : (⟨S64, .f32⟩ : BufTy).Contents (Elt Ideal)) (x9 : (⟨S64, .f32⟩ : BufTy).Contents (Elt Ideal)) (r : Fin 100000) :
    val_main_v93 (F := Ideal) x0 x1 x2 x3 x4 x5 x8 x9 (ix2 r (0 : Fin 1))
      = mean (zrow (fun k : Fin 64 => val_main_v85 (F := Ideal) x0 x1 x2 x3 x4 x8 x9 (ix2 r k)) (fun k : Fin 64 => x5 (ix1 k))) := by
  rw [val_main_v93_apply, val_main_v91_apply, val_main_v90_apply, val_main_v92_apply, val_main_cst_18_apply, val_main_cst_17_apply]
  have e : ∀ k : Fin 64, idx_main_v90 (idx_main_v91 (ix2 r (0 : Fin 1))) k = ix2 r k := fun k =>
    funext fun a => Fin.ext (by match a with | ⟨0, _⟩ => rfl | ⟨1, _⟩ => rfl)
  simp only [e, z2]
  generalize val_main_v85 (F := Ideal) x0 x1 x2 x3 x4 x8 x9 = A
  simp only [Ideal.ofBits_def, Ideal.ofBits_zero_f32, zero_add, Ideal.hostDivf_def]
  rfl

/-- Layer 2's centred row: the clamped row minus its mean. -/
theorem dev2 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x8 : (⟨S64, .f32⟩ : BufTy).Contents (Elt Ideal)) (x9 : (⟨S64, .f32⟩ : BufTy).Contents (Elt Ideal)) (r : Fin 100000) (k : Fin 64) :
    val_main_v95 (F := Ideal) x0 x1 x2 x3 x4 x5 x8 x9 (ix2 r k)
      = zrow (fun k : Fin 64 => val_main_v85 (F := Ideal) x0 x1 x2 x3 x4 x8 x9 (ix2 r k)) (fun k : Fin 64 => x5 (ix1 k)) k - mean (zrow (fun k : Fin 64 => val_main_v85 (F := Ideal) x0 x1 x2 x3 x4 x8 x9 (ix2 r k)) (fun k : Fin 64 => x5 (ix1 k))) := by
  rw [val_main_v95_apply, val_main_v94_apply]
  have e : idx_main_v94 (ix2 r k) = ix2 r (0 : Fin 1) :=
    funext fun a => Fin.ext (by match a with | ⟨0, _⟩ => rfl | ⟨1, _⟩ => rfl)
  rw [e, z2, mean2]
  generalize val_main_v85 (F := Ideal) x0 x1 x2 x3 x4 x8 x9 = A
  rfl

/-- Layer 2's squared centred row. -/
theorem sq2 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x8 : (⟨S64, .f32⟩ : BufTy).Contents (Elt Ideal)) (x9 : (⟨S64, .f32⟩ : BufTy).Contents (Elt Ideal)) (r : Fin 100000) (k : Fin 64) :
    val_main_v96 (F := Ideal) x0 x1 x2 x3 x4 x5 x8 x9 (ix2 r k)
      = (zrow (fun k : Fin 64 => val_main_v85 (F := Ideal) x0 x1 x2 x3 x4 x8 x9 (ix2 r k)) (fun k : Fin 64 => x5 (ix1 k)) k - mean (zrow (fun k : Fin 64 => val_main_v85 (F := Ideal) x0 x1 x2 x3 x4 x8 x9 (ix2 r k)) (fun k : Fin 64 => x5 (ix1 k)))) * (zrow (fun k : Fin 64 => val_main_v85 (F := Ideal) x0 x1 x2 x3 x4 x8 x9 (ix2 r k)) (fun k : Fin 64 => x5 (ix1 k)) k - mean (zrow (fun k : Fin 64 => val_main_v85 (F := Ideal) x0 x1 x2 x3 x4 x8 x9 (ix2 r k)) (fun k : Fin 64 => x5 (ix1 k)))) := by
  rw [val_main_v96_apply, dev2]
  generalize val_main_v85 (F := Ideal) x0 x1 x2 x3 x4 x8 x9 = A
  rfl

/-- Layer 2's row variance: the sum of the squares of the centred row divided by 64. -/
theorem var2 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x8 : (⟨S64, .f32⟩ : BufTy).Contents (Elt Ideal)) (x9 : (⟨S64, .f32⟩ : BufTy).Contents (Elt Ideal)) (r : Fin 100000) :
    val_main_v100 (F := Ideal) x0 x1 x2 x3 x4 x5 x8 x9 (ix2 r (0 : Fin 1))
      = var (zrow (fun k : Fin 64 => val_main_v85 (F := Ideal) x0 x1 x2 x3 x4 x8 x9 (ix2 r k)) (fun k : Fin 64 => x5 (ix1 k))) := by
  rw [val_main_v100_apply, val_main_v98_apply, val_main_v97_apply, val_main_v99_apply, val_main_cst_20_apply, val_main_cst_19_apply]
  have e : ∀ k : Fin 64, idx_main_v97 (idx_main_v98 (ix2 r (0 : Fin 1))) k = ix2 r k := fun k =>
    funext fun a => Fin.ext (by match a with | ⟨0, _⟩ => rfl | ⟨1, _⟩ => rfl)
  simp only [e, sq2]
  generalize val_main_v85 (F := Ideal) x0 x1 x2 x3 x4 x8 x9 = A
  simp only [Ideal.ofBits_def, Ideal.ofBits_zero_f32, zero_add, Ideal.hostDivf_def]
  rfl

/-- Layer 2's output at `(r, j)`: the normalised clamped row, scaled and shifted. -/
theorem layer2 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x8 : (⟨S64, .f32⟩ : BufTy).Contents (Elt Ideal)) (x9 : (⟨S64, .f32⟩ : BufTy).Contents (Elt Ideal)) (r : Fin 100000) (j : Fin 64) :
    val_main_v113 (F := Ideal) x0 x1 x2 x3 x4 x5 x8 x9 (ix2 r j)
      = postAt (fun k : Fin 64 => val_main_v85 (F := Ideal) x0 x1 x2 x3 x4 x8 x9 (ix2 r k)) (fun k : Fin 64 => x5 (ix1 k))
          (fun k : Fin 64 => x8 (ix1 k)) (fun k : Fin 64 => x9 (ix1 k)) j := by
  rw [val_main_v113_apply, val_main_v110_apply, val_main_v107_apply, val_main_v102_apply, val_main_v101_apply, val_main_v106_apply, val_main_v105_apply,
    val_main_v104_apply, val_main_v103_apply, val_main_cst_21_apply, val_main_v109_apply, val_main_v108_apply, val_main_v112_apply, val_main_v111_apply]
  have e59 : idx_main_v101 (ix2 r j) = ix2 r (0 : Fin 1) :=
    funext fun a => Fin.ext (by match a with | ⟨0, _⟩ => rfl | ⟨1, _⟩ => rfl)
  have e64 : idx_main_v106 (ix2 r j) = ix2 r (0 : Fin 1) :=
    funext fun a => Fin.ext (by match a with | ⟨0, _⟩ => rfl | ⟨1, _⟩ => rfl)
  have e66 : idx_main_v108 (idx_main_v109 (ix2 r j)) = ix1 j :=
    funext fun a => Fin.ext (by match a with | ⟨0, _⟩ => rfl)
  have e69 : idx_main_v111 (idx_main_v112 (ix2 r j)) = ix1 j :=
    funext fun a => Fin.ext (by match a with | ⟨0, _⟩ => rfl)
  rw [e59, e64, e66, e69, z2, mean2, var2]
  generalize val_main_v85 (F := Ideal) x0 x1 x2 x3 x4 x8 x9 = A
  rfl

/-! ## Layer 3: bias, clamp, and the normalisation of a row

The mixed rows enter only as a function of the entry: each proof names them by a variable before it computes. -/

/-- Layer 3's clamped row: the mixed row plus the bias, clamped at zero. -/
theorem z3 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (r : Fin 100000) (k : Fin 64) :
    val_main_v131 (F := Ideal) x0 x1 x2 x3 x4 x5 x6 x7 x8 x9 (ix2 r k)
      = zrow (fun k : Fin 64 => val_main_v127 (F := Ideal) x0 x1 x2 x3 x4 x5 x6 x8 x9 (ix2 r k)) (fun k : Fin 64 => x7 (ix1 k)) k := by
  rw [val_main_v131_apply, val_main_v130_apply, val_main_v129_apply, val_main_v128_apply, val_main_call3_v0_apply, val_main_call3_cst_apply]
  generalize val_main_v127 (F := Ideal) x0 x1 x2 x3 x4 x5 x6 x8 x9 = A
  have e : idx_main_v128 (idx_main_v129 (ix2 r k)) = ix1 k :=
    funext fun a => Fin.ext (by match a with | ⟨0, _⟩ => rfl)
  rw [e]
  rfl

/-- Layer 3's row mean: the sum of the clamped row (from the zero initial value) divided by 64. -/
theorem mean3 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (r : Fin 100000) :
    val_main_v135 (F := Ideal) x0 x1 x2 x3 x4 x5 x6 x7 x8 x9 (ix2 r (0 : Fin 1))
      = mean (zrow (fun k : Fin 64 => val_main_v127 (F := Ideal) x0 x1 x2 x3 x4 x5 x6 x8 x9 (ix2 r k)) (fun k : Fin 64 => x7 (ix1 k))) := by
  rw [val_main_v135_apply, val_main_v133_apply, val_main_v132_apply, val_main_v134_apply, val_main_cst_26_apply, val_main_cst_25_apply]
  have e : ∀ k : Fin 64, idx_main_v132 (idx_main_v133 (ix2 r (0 : Fin 1))) k = ix2 r k := fun k =>
    funext fun a => Fin.ext (by match a with | ⟨0, _⟩ => rfl | ⟨1, _⟩ => rfl)
  simp only [e, z3]
  generalize val_main_v127 (F := Ideal) x0 x1 x2 x3 x4 x5 x6 x8 x9 = A
  simp only [Ideal.ofBits_def, Ideal.ofBits_zero_f32, zero_add, Ideal.hostDivf_def]
  rfl

/-- Layer 3's centred row: the clamped row minus its mean. -/
theorem dev3 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (r : Fin 100000) (k : Fin 64) :
    val_main_v137 (F := Ideal) x0 x1 x2 x3 x4 x5 x6 x7 x8 x9 (ix2 r k)
      = zrow (fun k : Fin 64 => val_main_v127 (F := Ideal) x0 x1 x2 x3 x4 x5 x6 x8 x9 (ix2 r k)) (fun k : Fin 64 => x7 (ix1 k)) k - mean (zrow (fun k : Fin 64 => val_main_v127 (F := Ideal) x0 x1 x2 x3 x4 x5 x6 x8 x9 (ix2 r k)) (fun k : Fin 64 => x7 (ix1 k))) := by
  rw [val_main_v137_apply, val_main_v136_apply]
  have e : idx_main_v136 (ix2 r k) = ix2 r (0 : Fin 1) :=
    funext fun a => Fin.ext (by match a with | ⟨0, _⟩ => rfl | ⟨1, _⟩ => rfl)
  rw [e, z3, mean3]
  generalize val_main_v127 (F := Ideal) x0 x1 x2 x3 x4 x5 x6 x8 x9 = A
  rfl

/-- Layer 3's squared centred row. -/
theorem sq3 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (r : Fin 100000) (k : Fin 64) :
    val_main_v138 (F := Ideal) x0 x1 x2 x3 x4 x5 x6 x7 x8 x9 (ix2 r k)
      = (zrow (fun k : Fin 64 => val_main_v127 (F := Ideal) x0 x1 x2 x3 x4 x5 x6 x8 x9 (ix2 r k)) (fun k : Fin 64 => x7 (ix1 k)) k - mean (zrow (fun k : Fin 64 => val_main_v127 (F := Ideal) x0 x1 x2 x3 x4 x5 x6 x8 x9 (ix2 r k)) (fun k : Fin 64 => x7 (ix1 k)))) * (zrow (fun k : Fin 64 => val_main_v127 (F := Ideal) x0 x1 x2 x3 x4 x5 x6 x8 x9 (ix2 r k)) (fun k : Fin 64 => x7 (ix1 k)) k - mean (zrow (fun k : Fin 64 => val_main_v127 (F := Ideal) x0 x1 x2 x3 x4 x5 x6 x8 x9 (ix2 r k)) (fun k : Fin 64 => x7 (ix1 k)))) := by
  rw [val_main_v138_apply, dev3]
  generalize val_main_v127 (F := Ideal) x0 x1 x2 x3 x4 x5 x6 x8 x9 = A
  rfl

/-- Layer 3's row variance: the sum of the squares of the centred row divided by 64. -/
theorem var3 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (r : Fin 100000) :
    val_main_v142 (F := Ideal) x0 x1 x2 x3 x4 x5 x6 x7 x8 x9 (ix2 r (0 : Fin 1))
      = var (zrow (fun k : Fin 64 => val_main_v127 (F := Ideal) x0 x1 x2 x3 x4 x5 x6 x8 x9 (ix2 r k)) (fun k : Fin 64 => x7 (ix1 k))) := by
  rw [val_main_v142_apply, val_main_v140_apply, val_main_v139_apply, val_main_v141_apply, val_main_cst_28_apply, val_main_cst_27_apply]
  have e : ∀ k : Fin 64, idx_main_v139 (idx_main_v140 (ix2 r (0 : Fin 1))) k = ix2 r k := fun k =>
    funext fun a => Fin.ext (by match a with | ⟨0, _⟩ => rfl | ⟨1, _⟩ => rfl)
  simp only [e, sq3]
  generalize val_main_v127 (F := Ideal) x0 x1 x2 x3 x4 x5 x6 x8 x9 = A
  simp only [Ideal.ofBits_def, Ideal.ofBits_zero_f32, zero_add, Ideal.hostDivf_def]
  rfl

/-- Layer 3's output at `(r, j)`: the normalised clamped row, scaled and shifted. -/
theorem layer3 (x0 : (⟨S100000x128, .f32⟩ : BufTy).Contents (Elt Ideal)) (x1 : (⟨S2x3200000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64, .f32⟩ : BufTy).Contents (Elt Ideal)) (x9 : (⟨S64, .f32⟩ : BufTy).Contents (Elt Ideal)) (r : Fin 100000) (j : Fin 64) :
    val_main_v155 (F := Ideal) x0 x1 x2 x3 x4 x5 x6 x7 x8 x9 (ix2 r j)
      = postAt (fun k : Fin 64 => val_main_v127 (F := Ideal) x0 x1 x2 x3 x4 x5 x6 x8 x9 (ix2 r k)) (fun k : Fin 64 => x7 (ix1 k))
          (fun k : Fin 64 => x8 (ix1 k)) (fun k : Fin 64 => x9 (ix1 k)) j := by
  rw [val_main_v155_apply, val_main_v152_apply, val_main_v149_apply, val_main_v144_apply, val_main_v143_apply, val_main_v148_apply, val_main_v147_apply,
    val_main_v146_apply, val_main_v145_apply, val_main_cst_29_apply, val_main_v151_apply, val_main_v150_apply, val_main_v154_apply, val_main_v153_apply]
  have e59 : idx_main_v143 (ix2 r j) = ix2 r (0 : Fin 1) :=
    funext fun a => Fin.ext (by match a with | ⟨0, _⟩ => rfl | ⟨1, _⟩ => rfl)
  have e64 : idx_main_v148 (ix2 r j) = ix2 r (0 : Fin 1) :=
    funext fun a => Fin.ext (by match a with | ⟨0, _⟩ => rfl | ⟨1, _⟩ => rfl)
  have e66 : idx_main_v150 (idx_main_v151 (ix2 r j)) = ix1 j :=
    funext fun a => Fin.ext (by match a with | ⟨0, _⟩ => rfl)
  have e69 : idx_main_v153 (idx_main_v154 (ix2 r j)) = ix1 j :=
    funext fun a => Fin.ext (by match a with | ⟨0, _⟩ => rfl)
  rw [e59, e64, e66, e69, z3, mean3, var3]
  generalize val_main_v127 (F := Ideal) x0 x1 x2 x3 x4 x5 x6 x8 x9 = A
  rfl

end Cert.RefStages

end
-- ==== Proof.Chain.lean ====
/-
  The two programs, stage by stage.

  Each buffer the kernel program leaves at a segment boundary is the reference's stage function of the argument
  arrays: the first projection is the reference's first product (a tiled product is the whole product, row by
  row); each edge mix is the reference's (the same operations on equal operands); each normalisation region is the
  reference's bias / clamp / normalise chain (row by row, against the same specification); the classifier is the
  last product plus the bias. The chain ends at the program's result buffer.
-/
import proofs.«120807_j13108240187815_1_alg».proof.Proof.Region0
import proofs.«120807_j13108240187815_1_alg».proof.Proof.Region1
import proofs.«120807_j13108240187815_1_alg».proof.Proof.Region2
import proofs.«120807_j13108240187815_1_alg».proof.Proof.Region3
import proofs.«120807_j13108240187815_1_alg».proof.Proof.Region4
import proofs.«120807_j13108240187815_1_alg».proof.Proof.Region5
import proofs.«120807_j13108240187815_1_alg».proof.Proof.Region6
import proofs.«120807_j13108240187815_1_alg».proof.Proof.Carry
import proofs.«120807_j13108240187815_1_alg».proof.Proof.Prep
import proofs.«120807_j13108240187815_1_alg».proof.Proof.HostMix
import proofs.«120807_j13108240187815_1_alg».proof.Proof.MixRef
import proofs.«120807_j13108240187815_1_alg».proof.Proof.RefStages
import Idealize.ShloMosaic.Lib.ValueLayout

set_option maxRecDepth 16384

noncomputable section

namespace Cert.Chain

open Cert.KernelIdeal Cert.KernelIdeal.Gen Idealize.ShloMosaic Idealize.ShloMosaic.TcCoe Idealize.ShloMosaic.ValueIdx
open Idealize.SL.Sem Cert.Spec Cert.ReferenceIdeal.ReadP

/-! ## Each region's function against the reference's stage, on any operands -/

/-- A tiled 128-column projection is the reference's whole product. -/
theorem proj0 (X : (⟨Cert.ReferenceIdeal.S100000x128, .f32⟩ : BufTy).Contents (Elt Ideal)) (W : (⟨Cert.ReferenceIdeal.S128x64, .f32⟩ : BufTy).Contents (Elt Ideal)) :
    Region0.G X W = val_main_v30 (F := Ideal) X W := by
  funext i
  obtain ⟨r, j, rfl⟩ : ∃ (r : Fin 100000) (j : Fin 64), i = ix2 r j := ⟨i 0, i 1, eq_ix2 i⟩
  exact (Cert.RefStages.lin1 X W r j).symm

/-- A one-row cast of a vector, read along its row. -/
theorem row64 (b : (⟨Cert.ReferenceIdeal.S64, .f32⟩ : BufTy).Contents (Elt Ideal)) (k : Fin 64) :
    shapeCast S1x64 b shapeCasts_S64_S1x64 (ix2 (0 : Fin 1) k) = b (ix1 k) :=
  shapeCast_a_1a_apply b _ _ k

theorem row4 (b : (⟨Cert.ReferenceIdeal.S4, .f32⟩ : BufTy).Contents (Elt Ideal)) (k : Fin 4) :
    shapeCast S1x4 b shapeCasts_S4_S1x4 (ix2 (0 : Fin 1) k) = b (ix1 k) :=
  shapeCast_a_1a_apply b _ _ k

/-- The layer's entry respects equality of its four rows. -/
theorem postAt_congr {a a' b b' g g' be be' : Fin 64 → EReal} (ha : a = a') (hb : b = b') (hg : g = g') (hbe : be = be') (j : Fin 64) :
    postAt a b g be j = postAt a' b' g' be' j := by
  subst ha; subst hb; subst hg; subst hbe; rfl

/-- Region 1's function on one-row casts of the bias, scale and shift vectors, at one entry. -/
theorem post1 (A : (⟨Cert.ReferenceIdeal.S100000x64, .f32⟩ : BufTy).Contents (Elt Ideal)) (b g be : (⟨Cert.ReferenceIdeal.S64, .f32⟩ : BufTy).Contents (Elt Ideal))
    (r : Fin 100000) (j : Fin 64) :
    Region1.G A (shapeCast S1x64 b shapeCasts_S64_S1x64) (shapeCast S1x64 g shapeCasts_S64_S1x64) (shapeCast S1x64 be shapeCasts_S64_S1x64) (ix2 r j)
      = postAt (fun k : Fin 64 => A (ix2 r k)) (fun k : Fin 64 => b (ix1 k)) (fun k : Fin 64 => g (ix1 k)) (fun k : Fin 64 => be (ix1 k)) j := by
  show postAt (fun k : Fin 64 => A (ix2 r k)) (fun k : Fin 64 => shapeCast S1x64 b shapeCasts_S64_S1x64 (ix2 (0 : Fin 1) k))
      (fun k : Fin 64 => shapeCast S1x64 g shapeCasts_S64_S1x64 (ix2 (0 : Fin 1) k))
      (fun k : Fin 64 => shapeCast S1x64 be shapeCasts_S64_S1x64 (ix2 (0 : Fin 1) k)) j = _
  exact postAt_congr rfl (funext (row64 b)) (funext (row64 g)) (funext (row64 be)) j

/-- Region 3's function on one-row casts of the bias, scale and shift vectors, at one entry. -/
theorem post3 (A : (⟨Cert.ReferenceIdeal.S100000x64, .f32⟩ : BufTy).Contents (Elt Ideal)) (b g be : (⟨Cert.ReferenceIdeal.S64, .f32⟩ : BufTy).Contents (Elt Ideal))
    (r : Fin 100000) (j : Fin 64) :
    Region3.G A (shapeCast S1x64 b shapeCasts_S64_S1x64) (shapeCast S1x64 g shapeCasts_S64_S1x64) (shapeCast S1x64 be shapeCasts_S64_S1x64) (ix2 r j)
      = postAt (fun k : Fin 64 => A (ix2 r k)) (fun k : Fin 64 => b (ix1 k)) (fun k : Fin 64 => g (ix1 k)) (fun k : Fin 64 => be (ix1 k)) j := by
  show postAt (fun k : Fin 64 => A (ix2 r k)) (fun k : Fin 64 => shapeCast S1x64 b shapeCasts_S64_S1x64 (ix2 (0 : Fin 1) k))
      (fun k : Fin 64 => shapeCast S1x64 g shapeCasts_S64_S1x64 (ix2 (0 : Fin 1) k))
      (fun k : Fin 64 => shapeCast S1x64 be shapeCasts_S64_S1x64 (ix2 (0 : Fin 1) k)) j = _
  exact postAt_congr rfl (funext (row64 b)) (funext (row64 g)) (funext (row64 be)) j

/-- Region 5's function on one-row casts of the bias, scale and shift vectors, at one entry. -/
theorem post5 (A : (⟨Cert.ReferenceIdeal.S100000x64, .f32⟩ : BufTy).Contents (Elt Ideal)) (b g be : (⟨Cert.ReferenceIdeal.S64, .f32⟩ : BufTy).Contents (Elt Ideal))
    (r : Fin 100000) (j : Fin 64) :
    Region5.G A (shapeCast S1x64 b shapeCasts_S64_S1x64) (shapeCast S1x64 g shapeCasts_S64_S1x64) (shapeCast S1x64 be shapeCasts_S64_S1x64) (ix2 r j)
      = postAt (fun k : Fin 64 => A (ix2 r k)) (fun k : Fin 64 => b (ix1 k)) (fun k : Fin 64 => g (ix1 k)) (fun k : Fin 64 => be (ix1 k)) j := by
  show postAt (fun k : Fin 64 => A (ix2 r k)) (fun k : Fin 64 => shapeCast S1x64 b shapeCasts_S64_S1x64 (ix2 (0 : Fin 1) k))
      (fun k : Fin 64 => shapeCast S1x64 g shapeCasts_S64_S1x64 (ix2 (0 : Fin 1) k))
      (fun k : Fin 64 => shapeCast S1x64 be shapeCasts_S64_S1x64 (ix2 (0 : Fin 1) k)) j = _
  exact postAt_congr rfl (funext (row64 b)) (funext (row64 g)) (funext (row64 be)) j

/-- The edge mix respects equality of its four operands. -/
theorem agg_congr {H H' : (⟨Cert.ReferenceIdeal.S100000x64, .f32⟩ : BufTy).Contents (Elt Ideal)}
    {s s' d d' : (⟨Cert.ReferenceIdeal.S3300000, .i32⟩ : BufTy).Contents (Elt Ideal)}
    {w w' : (⟨Cert.ReferenceIdeal.S3300000, .f32⟩ : BufTy).Contents (Elt Ideal)}
    (hH : H = H') (hs : s = s') (hd : d = d') (hw : w = w') : Cert.Mix.agg H s d w = Cert.Mix.agg H' s' d' w' := by
  subst hH; subst hs; subst hd; subst hw; rfl

/-! ## The chain -/

variable (m : (ℓ : Loc nD τ sig) → Buf (Elt Ideal) ℓ) (ρ : Dev nD → PrngReg) (c : Dev nD)

/-- After region 0: the first projection. -/
theorem s36 : W4 m ρ c (Proc.devRef .tc main_v36) = val_main_v30 (F := Ideal) (m ((c : Thread nD τ).loc main_arg0)) (m ((c : Thread nD τ).loc main_arg2)) :=
  (W4_arr m ρ c 2).trans ((Region0.value (V3 m ρ) c).trans
    ((congrArg₂ Region0.G (Carry.at3_arg0 m ρ c) (Carry.at3_arg2 m ρ c)).trans (proj0 _ _)))

/-- After the first mix. -/
theorem s49 : W5 m ρ c (Proc.devRef .tc main_v49) = val_main_v43 (F := Ideal) (m ((c : Thread nD τ).loc main_arg0)) (m ((c : Thread nD τ).loc main_arg1)) (m ((c : Thread nD τ).loc main_arg2)) :=
  (HostMix.mix1 m ρ c).trans ((agg_congr (s36 m ρ c) ((Carry.at4_v3 m ρ c).trans (Prep.v3 m ρ c))
    ((Carry.at4_v6 m ρ c).trans (Prep.v6 m ρ c)) ((Carry.at4_v29 m ρ c).trans (Prep.v29 m ρ c))).trans
    (Cert.MixRef.agg1 _ _ _).symm)

/-- After region 1: the first layer's output. -/
theorem s50 : W6 m ρ c (Proc.devRef .tc main_v50) = val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg8)) (m ((c : Thread nD τ).loc main_arg9)) := by
  refine (W6_arr m ρ c 4).trans ((Region1.value (V5 m ρ) c).trans ?_)
  show Region1.G (W5 m ρ c (Proc.devRef .tc main_v49)) (W5 m ρ c (Proc.devRef .tc main_v32)) (W5 m ρ c (Proc.devRef .tc main_v30)) (W5 m ρ c (Proc.devRef .tc main_v31)) = _
  rw [s49 m ρ c, (Carry.at5_v32 m ρ c).trans (Prep.v32 m ρ c), (Carry.at5_v30 m ρ c).trans (Prep.v30 m ρ c), (Carry.at5_v31 m ρ c).trans (Prep.v31 m ρ c)]
  funext i
  obtain ⟨r, j, rfl⟩ : ∃ (r : Fin 100000) (j : Fin 64), i = ix2 r j := ⟨i 0, i 1, eq_ix2 i⟩
  exact (post1 _ _ _ _ r j).trans (Cert.RefStages.layer1 _ _ _ _ _ _ r j).symm

/-- After region 2: the second projection. -/
theorem s51 : W7 m ρ c (Proc.devRef .tc main_v51) = val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) := by
  refine (W7_arr m ρ c 2).trans ((Region2.value (V6 m ρ) c).trans ?_)
  show Region2.G (W6 m ρ c (Proc.devRef .tc main_v50)) (W6 m ρ c (Proc.devRef .tc main_arg4)) = _
  rw [s50 m ρ c, Carry.at6_arg4 m ρ c]
  funext i
  obtain ⟨r, j, rfl⟩ : ∃ (r : Fin 100000) (j : Fin 64), i = ix2 r j := ⟨i 0, i 1, eq_ix2 i⟩
  exact (Cert.RefStages.lin2 _ _ _ _ _ _ _ r j).symm

/-- After the second mix. -/
theorem s64 : W8 m ρ c (Proc.devRef .tc main_v64) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg8)) (m ((c : Thread nD τ).loc main_arg9)) :=
  (HostMix.mix2 m ρ c).trans ((agg_congr (s51 m ρ c) ((Carry.at7_v3 m ρ c).trans (Prep.v3 m ρ c))
    ((Carry.at7_v6 m ρ c).trans (Prep.v6 m ρ c)) ((Carry.at7_v29 m ρ c).trans (Prep.v29 m ρ c))).trans
    (Cert.MixRef.agg2 _ _ _ _ _ _ _).symm)

/-- After region 3: the second layer's output. -/
theorem s65 : W9 m ρ c (Proc.devRef .tc main_v65) = val_main_v113 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) := by
  refine (W9_arr m ρ c 4).trans ((Region3.value (V8 m ρ) c).trans ?_)
  show Region3.G (W8 m ρ c (Proc.devRef .tc main_v64)) (W8 m ρ c (Proc.devRef .tc main_v33)) (W8 m ρ c (Proc.devRef .tc main_v30)) (W8 m ρ c (Proc.devRef .tc main_v31)) = _
  rw [s64 m ρ c, (Carry.at8_v33 m ρ c).trans (Prep.v33 m ρ c), (Carry.at8_v30 m ρ c).trans (Prep.v30 m ρ c), (Carry.at8_v31 m ρ c).trans (Prep.v31 m ρ c)]
  funext i
  obtain ⟨r, j, rfl⟩ : ∃ (r : Fin 100000) (j : Fin 64), i = ix2 r j := ⟨i 0, i 1, eq_ix2 i⟩
  exact (post3 _ _ _ _ r j).trans (Cert.RefStages.layer2 _ _ _ _ _ _ _ _ r j).symm

/-- After region 4: the third projection. -/
theorem s66 : W10 m ρ c (Proc.devRef .tc main_v66) = val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) := by
  refine (W10_arr m ρ c 2).trans ((Region4.value (V9 m ρ) c).trans ?_)
  show Region4.G (W9 m ρ c (Proc.devRef .tc main_v65)) (W9 m ρ c (Proc.devRef .tc main_arg6)) = _
  rw [s65 m ρ c, Carry.at9_arg6 m ρ c]
  funext i
  obtain ⟨r, j, rfl⟩ : ∃ (r : Fin 100000) (j : Fin 64), i = ix2 r j := ⟨i 0, i 1, eq_ix2 i⟩
  exact (Cert.RefStages.lin3 _ _ _ _ _ _ _ _ _ r j).symm

/-- After the third mix. -/
theorem s79 : W11 m ρ c (Proc.devRef .tc main_v79) = val_main_v127 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg9)) :=
  (HostMix.mix3 m ρ c).trans ((agg_congr (s66 m ρ c) ((Carry.at10_v3 m ρ c).trans (Prep.v3 m ρ c))
    ((Carry.at10_v6 m ρ c).trans (Prep.v6 m ρ c)) ((Carry.at10_v29 m ρ c).trans (Prep.v29 m ρ c))).trans
    (Cert.MixRef.agg3 _ _ _ _ _ _ _ _ _).symm)

/-- After region 5: the third layer's output. -/
theorem s80 : W12 m ρ c (Proc.devRef .tc main_v80) = val_main_v155 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 4).trans ((Region5.value (V11 m ρ) c).trans ?_)
  show Region5.G (W11 m ρ c (Proc.devRef .tc main_v79)) (W11 m ρ c (Proc.devRef .tc main_v34)) (W11 m ρ c (Proc.devRef .tc main_v30)) (W11 m ρ c (Proc.devRef .tc main_v31)) = _
  rw [s79 m ρ c, (Carry.at11_v34 m ρ c).trans (Prep.v34 m ρ c), (Carry.at11_v30 m ρ c).trans (Prep.v30 m ρ c), (Carry.at11_v31 m ρ c).trans (Prep.v31 m ρ c)]
  funext i
  obtain ⟨r, j, rfl⟩ : ∃ (r : Fin 100000) (j : Fin 64), i = ix2 r j := ⟨i 0, i 1, eq_ix2 i⟩
  exact (post5 _ _ _ _ r j).trans (Cert.RefStages.layer3 _ _ _ _ _ _ _ _ _ _ r j).symm

/-- After region 6: the program's result is the reference's. -/
theorem s81 : W13 m ρ c (Proc.devRef .tc main_v81) = val_main_v159 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W13_arr m ρ c 3).trans ((Region6.value (V12 m ρ) c).trans ?_)
  show Region6.G (W12 m ρ c (Proc.devRef .tc main_v80)) (W12 m ρ c (Proc.devRef .tc main_arg10)) (W12 m ρ c (Proc.devRef .tc main_v35)) = _
  rw [s80 m ρ c, Carry.at12_arg10 m ρ c, (Carry.at12_v35 m ρ c).trans (Prep.v35 m ρ c)]
  funext i
  obtain ⟨r, j, rfl⟩ : ∃ (r : Fin 100000) (j : Fin 4), i = ix2 r j := ⟨i 0, i 1, eq_ix2 i⟩
  refine Eq.trans ?_ (Cert.RefStages.cls _ _ _ _ _ _ _ _ _ _ _ _ r j).symm
  show dotAt _ _ + shapeCast S1x4 _ shapeCasts_S4_S1x4 (ix2 (0 : Fin 1) j) = _
  rw [row4]

end Cert.Chain

end
-- ==== Proof.lean ====
/-
  The certificate: a three-layer graph network — each layer a projection, an edge mix, a bias, a clamp at zero and a
  row normalisation — followed by a classifier, computed by seven tiled regions among host operations, against the
  same network computed by whole-array host operations.

  At the ideal instance a change of float format is the identity, a tiled product is the whole product row by row,
  a lane sum is the host's row sum, and a quotient by 64 is the same operation on both sides: the two programs
  compute the same function of their arguments entry by entry, with no algebraic law needed beyond reading each
  operation at an index (so the finiteness of the inputs is never used). The kernel program's run is read at its
  result buffer (Proof/RunAll.lean), the buffer's contents followed through the program's segments to the reference's
  own stage functions (Proof/Chain.lean over the regions' whole-array functions, Proof/Region0.lean …
  Proof/Region6.lean, the bodies read at an entry, Proof/Bodies.lean, and the reference's stages read at an entry,
  Proof/RefStages.lean, both against Proof/Spec.lean), and the reference's run is read at its result buffer as its last stage (Proof/RefValue.lean).
  The idealization rewrote nothing, so the `preserves` claim is empty.
-/
import proofs.«120807_j13108240187815_1_alg».proof.Defs
import proofs.«120807_j13108240187815_1_alg».proof.Proof.Gen.Kernel
import proofs.«120807_j13108240187815_1_alg».proof.Proof.Gen.Kernel.Skeleton
import proofs.«120807_j13108240187815_1_alg».proof.Proof.Gen.Kernel.Launch
import proofs.«120807_j13108240187815_1_alg».proof.Proof.Gen.Kernel.Points
import proofs.«120807_j13108240187815_1_alg».proof.Proof.Gen.Kernel.Frame
import proofs.«120807_j13108240187815_1_alg».proof.Proof.Gen.KernelIdeal
import proofs.«120807_j13108240187815_1_alg».proof.Proof.Gen.KernelIdeal.Skeleton
import proofs.«120807_j13108240187815_1_alg».proof.Proof.Gen.KernelIdeal.Launch
import proofs.«120807_j13108240187815_1_alg».proof.Proof.Gen.KernelIdeal.Points
import proofs.«120807_j13108240187815_1_alg».proof.Proof.Gen.KernelIdeal.Frame
import proofs.«120807_j13108240187815_1_alg».proof.Proof.Gen.ReferenceIdeal
import proofs.«120807_j13108240187815_1_alg».proof.Proof.Gen.Pre_finite_inputs
import proofs.«120807_j13108240187815_1_alg».proof.Proof.RefReadP
import proofs.«120807_j13108240187815_1_alg».proof.Proof.RefValue
import proofs.«120807_j13108240187815_1_alg».proof.Proof.RunAll
import proofs.«120807_j13108240187815_1_alg».proof.Proof.Chain
import Idealize.ShloMosaic.Adequacy
import Idealize.ShloMosaic.Init

set_option maxRecDepth 16384

noncomputable section

namespace Cert.Proof

open Idealize.ShloMosaic Idealize.SL.Sem Cert.ReferenceIdeal.ReadP

/-- The kernel program as printed runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- The idealized kernel program runs and leaves its arguments as launched. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run (F := Ideal) m ρ)

/-- From memories that agree on the arguments both programs end with the reference's last stage of those
    arguments in their result buffers, and the arguments unchanged. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => val_main_v159 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ⟨?_, ?_, ?_, ?_, ?_, ?_, ?_, ?_, ?_, ?_, ?_, ?_, ?_⟩) (Cert.KernelIdeal.RunAll.run_all m ρ)
    · exact (h c _ (Cert.KernelIdeal.Gen.mem_uc Cert.KernelIdeal.main_v81 (by decide))).trans (Cert.Chain.s81 m ρ c)
    · exact (h c _ (Cert.KernelIdeal.Gen.mem_uc Cert.KernelIdeal.main_arg0 (by decide))).trans (Cert.KernelIdeal.Gen.W13_main_arg0 m ρ c)
    · exact (h c _ (Cert.KernelIdeal.Gen.mem_uc Cert.KernelIdeal.main_arg1 (by decide))).trans (Cert.KernelIdeal.Gen.W13_main_arg1 m ρ c)
    · exact (h c _ (Cert.KernelIdeal.Gen.mem_uc Cert.KernelIdeal.main_arg2 (by decide))).trans (Cert.KernelIdeal.Gen.W13_main_arg2 m ρ c)
    · exact (h c _ (Cert.KernelIdeal.Gen.mem_uc Cert.KernelIdeal.main_arg3 (by decide))).trans (Cert.KernelIdeal.Gen.W13_main_arg3 m ρ c)
    · exact (h c _ (Cert.KernelIdeal.Gen.mem_uc Cert.KernelIdeal.main_arg4 (by decide))).trans (Cert.KernelIdeal.Gen.W13_main_arg4 m ρ c)
    · exact (h c _ (Cert.KernelIdeal.Gen.mem_uc Cert.KernelIdeal.main_arg5 (by decide))).trans (Cert.KernelIdeal.Gen.W13_main_arg5 m ρ c)
    · exact (h c _ (Cert.KernelIdeal.Gen.mem_uc Cert.KernelIdeal.main_arg6 (by decide))).trans (Cert.KernelIdeal.Gen.W13_main_arg6 m ρ c)
    · exact (h c _ (Cert.KernelIdeal.Gen.mem_uc Cert.KernelIdeal.main_arg7 (by decide))).trans (Cert.KernelIdeal.Gen.W13_main_arg7 m ρ c)
    · exact (h c _ (Cert.KernelIdeal.Gen.mem_uc Cert.KernelIdeal.main_arg8 (by decide))).trans (Cert.KernelIdeal.Gen.W13_main_arg8 m ρ c)
    · exact (h c _ (Cert.KernelIdeal.Gen.mem_uc Cert.KernelIdeal.main_arg9 (by decide))).trans (Cert.KernelIdeal.Gen.W13_main_arg9 m ρ c)
    · exact (h c _ (Cert.KernelIdeal.Gen.mem_uc Cert.KernelIdeal.main_arg10 (by decide))).trans (Cert.KernelIdeal.Gen.W13_main_arg10 m ρ c)
    · exact (h c _ (Cert.KernelIdeal.Gen.mem_uc Cert.KernelIdeal.main_arg11 (by decide))).trans (Cert.KernelIdeal.Gen.W13_main_arg11 m ρ c)
  · refine (θ_run Cert.ReferenceIdeal.defs _ _).mono (fun r h c => ⟨(h c).1.trans ?_, (h c).2⟩)
      (Cert.ReferenceIdeal.RefValue.run (F := Ideal) m' ρ')
    obtain ⟨e0, e1, e2, e3, e4, e5, e6, e7, e8, e9, e10, e11⟩ := hagree c
    rw [e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
